-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S500000x2 : Shape := ⟨2, ![500000, 2]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1x64 .f32) (main_arg14 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S1x64 .f32 := Host.absf main_arg13
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S64x128 .f32) (main_arg12 : FVec F S64 .f32) (main_arg13 : FVec F S1x64 .f32) (main_arg14 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg11
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S64x128 .f32) (main_arg12 : FVec F S64 .f32) (main_arg13 : FVec F S1x64 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S500000x2 32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S64x128 .f32) (main_arg12 : FVec F S64 .f32) (main_arg13 : FVec F S1x64 .f32) (main_arg14 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S500000x2 : Shape := ⟨2, ![500000, 2]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S128x64 : Shape := ⟨2, ![128, 64]⟩
abbrev S64x1 : Shape := ⟨2, ![64, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S500000x1 : Shape := ⟨2, ![500000, 1]⟩
abbrev S500000 : Shape := ⟨1, ![500000]⟩
abbrev S500000x128 : Shape := ⟨2, ![500000, 128]⟩
abbrev S5000x64 : Shape := ⟨2, ![5000, 64]⟩
abbrev S1x1 : Shape := ⟨2, ![1, 1]⟩

abbrev nBuf : Space → Nat
  | .hbm => 88
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S500000x2, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S64x128, .f32⟩
  | .hbm, ⟨12, _⟩ => ⟨S64, .f32⟩
  | .hbm, ⟨13, _⟩ => ⟨S1x64, .f32⟩
  | .hbm, ⟨14, _⟩ => ⟨S1, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S100000x1, .f32⟩
  | .hbm, ⟨26, _⟩ => ⟨S128x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S128x64, .f32⟩
  | .hbm, ⟨32, _⟩ => ⟨S64x1, .f32⟩
  | .hbm, ⟨33, _⟩ => ⟨S100000x128, .bf16⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .bf16⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x128, .bf16⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .bf16⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S100000x128, .bf16⟩
  | .hbm, ⟨64, _⟩ => ⟨S500000x1, .i32⟩
  | .hbm, ⟨65, _⟩ => ⟨S500000, .i32⟩
  | .hbm, ⟨66, _⟩ => ⟨S500000x1, .i32⟩
  | .hbm, ⟨67, _⟩ => ⟨S500000, .i32⟩
  | .hbm, ⟨68, _⟩ => ⟨S_, .i32⟩
  | .hbm, ⟨69, _⟩ => ⟨S500000, .i32⟩
  | .hbm, ⟨70, _⟩ => ⟨S500000, .i1⟩
  | .hbm, ⟨71, _⟩ => ⟨S_, .i32⟩
  | .hbm, ⟨72, _⟩ => ⟨S500000, .i32⟩
  | .hbm, ⟨73, _⟩ => ⟨S500000, .i32⟩
  | .hbm, ⟨74, _⟩ => ⟨S500000, .i32⟩
  | .hbm, ⟨75, _⟩ => ⟨S500000x1, .i32⟩
  | .hbm, ⟨76, _⟩ => ⟨S500000x128, .bf16⟩
  | .hbm, ⟨77, _⟩ => ⟨S_, .i32⟩
  | .hbm, ⟨78, _⟩ => ⟨S500000, .i32⟩
  | .hbm, ⟨79, _⟩ => ⟨S500000, .i1⟩
  | .hbm, ⟨80, _⟩ => ⟨S_, .i32⟩
  | .hbm, ⟨81, _⟩ => ⟨S500000, .i32⟩
  | .hbm, ⟨82, _⟩ => ⟨S500000, .i32⟩
  | .hbm, ⟨83, _⟩ => ⟨S500000, .i32⟩
  | .hbm, ⟨84, _⟩ => ⟨S500000x1, .i32⟩
  | .hbm, ⟨85, _⟩ => ⟨S500000x128, .bf16⟩
  | .hbm, ⟨86, _⟩ => ⟨S500000x1, .f32⟩
  | .hbm, ⟨87, _⟩ => ⟨S500000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .bf16⟩
  | .local _ .vmem, ⟨16, _⟩ => ⟨S5000x128, .bf16⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S5000x128, .bf16⟩
  | .local _ .vmem, ⟨21, _⟩ => ⟨S5000x128, .bf16⟩
  | .local _ .vmem, ⟨22, _⟩ => ⟨S5000x128, .bf16⟩
  | .local _ .vmem, ⟨23, _⟩ => ⟨S5000x128, .bf16⟩
  | .local _ .vmem, ⟨24, _⟩ => ⟨S5000x128, .bf16⟩
  | .local _ .vmem, ⟨25, _⟩ => ⟨S5000x128, .bf16⟩
  | .local _ .vmem, ⟨26, _⟩ => ⟨S128x128, .f32⟩
  | .local _ .vmem, ⟨27, _⟩ => ⟨S128, .f32⟩
  | .local _ .vmem, ⟨28, _⟩ => ⟨S128x64, .f32⟩
  | .local _ .vmem, ⟨29, _⟩ => ⟨S64, .f32⟩
  | .local _ .vmem, ⟨30, _⟩ => ⟨S64x1, .f32⟩
  | .local _ .vmem, ⟨31, _⟩ => ⟨S1, .f32⟩
  | .local _ .vmem, ⟨32, _⟩ => ⟨S5000x1, .f32⟩
  | .local _ .vmem, ⟨33, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_3 : Ref sig .tc := ⟨.hbm, 49, rfl⟩
abbrev main_v29 : Ref sig .tc := ⟨.hbm, 50, rfl⟩
abbrev main_v30 : Ref sig .tc := ⟨.hbm, 51, rfl⟩
abbrev main_c_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_6 : Ref sig .tc := ⟨.hbm, 68, rfl⟩
abbrev main_v45 : Ref sig .tc := ⟨.hbm, 69, rfl⟩
abbrev main_v46 : Ref sig .tc := ⟨.hbm, 70, rfl⟩
abbrev main_c_7 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_8 : Ref sig .tc := ⟨.hbm, 77, rfl⟩
abbrev main_v52 : Ref sig .tc := ⟨.hbm, 78, rfl⟩
abbrev main_v53 : Ref sig .tc := ⟨.hbm, 79, rfl⟩
abbrev main_c_9 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg7_0 : Ref sig .tc := ⟨.vmem, 31, rfl⟩
abbrev cc2_stg8_0 : Ref sig .tc := ⟨.vmem, 32, rfl⟩
abbrev cc2_stg8_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem7_0 : DmaSem sig := 31
abbrev cc2_sem8_0 : DmaSem sig := 32
abbrev cc2_sem8_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  transposes_S128x128_S128x128_1_0 : S128x128.Transposes [1, 0] S128x128
  transposes_S64x128_S128x64_1_0 : S64x128.Transposes [1, 0] S128x64
  transposes_S1x64_S64x1_1_0 : S1x64.Transposes [1, 0] S64x1
  bitsLt_bf16_f32 : FTy.bits .bf16 < FTy.bits .f32
  bcast_S_S100000x128 : S_.BroadcastsInDim S100000x128 (![] : Fin 0 → Fin S100000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  slices_S500000x2_S500000x1_0_0 : S500000x2.Slices ![0, 0] S500000x1
  shapeCasts_S500000x1_S500000 : S500000x1.ShapeCasts S500000
  slices_S500000x2_S500000x1_0_1 : S500000x2.Slices ![0, 1] S500000x1
  bcast_S_S500000 : S_.BroadcastsInDim S500000 (![] : Fin 0 → Fin S500000.rank)
  bcast_S500000_S500000x1_0 : S500000.BroadcastsInDim S500000x1 (![0] : Fin 1 → Fin S500000x1.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .bf16 = 32 ∨ (Rect.block (s := S100000x128) S5000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .bf16 = 32 ∨ (Rect.block (s := S100000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .bf16 = 32 ∨ (Rect.block (s := S500000x128) S5000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .bf16 = 32 ∨ (Rect.block (s := S500000x128) S5000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x1.size a ≤ S64x1.size a
  hwx2_6 : ∀ i : grid2.Coords, EltTy.bits .f32 = 32 ∨ (Rect.block (s := S64x1) S64x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1.size a ≤ S1.size a
  hwx2_7 : ∀ i : grid2.Coords, EltTy.bits .f32 = 32 ∨ (Rect.block (s := S1) S1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x1.size a ≤ S500000x1.size a
  hwx2_8 : ∀ i : grid2.Coords, EltTy.bits .f32 = 32 ∨ (Rect.block (s := S500000x1) S5000x1.size (cc2_transform_8 i) (hinb2_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S64x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg14) S1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v59) S5000x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S500000x2 : Shape := ⟨2, ![500000, 2]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S500000x1 : Shape := ⟨2, ![500000, 1]⟩
abbrev S500000 : Shape := ⟨1, ![500000]⟩
abbrev S500000x128 : Shape := ⟨2, ![500000, 128]⟩
abbrev S128x64 : Shape := ⟨2, ![128, 64]⟩
abbrev S500000x64 : Shape := ⟨2, ![500000, 64]⟩
abbrev S64x1 : Shape := ⟨2, ![64, 1]⟩
abbrev S1x1 : Shape := ⟨2, ![1, 1]⟩

abbrev nBuf : Space → Nat
  | .hbm => 133
  | .vmem => 0
  | .smem => 0
  | _ => 0

abbrev hbmTy0_0 (i : Nat) : BufTy := match i % 128 with
  | 0 => ⟨S100000x128, .f32⟩
  | 1 => ⟨S2x1600000, .i32⟩
  | 2 => ⟨S500000x2, .i32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S64x128, .f32⟩
  | 12 => ⟨S64, .f32⟩
  | 13 => ⟨S1x64, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S128x128, .f32⟩
  | 45 => ⟨S100000x128, .f32⟩
  | 46 => ⟨S1x128, .f32⟩
  | 47 => ⟨S100000x128, .f32⟩
  | 48 => ⟨S100000x128, .f32⟩
  | 49 => ⟨S128x128, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S128x128, .f32⟩
  | 81 => ⟨S100000x128, .f32⟩
  | 82 => ⟨S1x128, .f32⟩
  | 83 => ⟨S100000x128, .f32⟩
  | 84 => ⟨S100000x128, .f32⟩
  | 85 => ⟨S128x128, .f32⟩
  | 86 => ⟨S100000x128, .f32⟩
  | 87 => ⟨S100000x128, .f32⟩
  | 88 => ⟨S500000x1, .i32⟩
  | 89 => ⟨S500000, .i32⟩
  | 90 => ⟨S_, .i32⟩
  | 91 => ⟨S500000, .i32⟩
  | 92 => ⟨S500000, .i1⟩
  | 93 => ⟨S_, .i32⟩
  | 94 => ⟨S500000, .i32⟩
  | 95 => ⟨S500000, .i32⟩
  | 96 => ⟨S500000, .i32⟩
  | 97 => ⟨S500000x1, .i32⟩
  | 98 => ⟨S500000x128, .f32⟩
  | 99 => ⟨S500000x1, .i32⟩
  | 100 => ⟨S500000, .i32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000x128, .f32⟩
  | 110 => ⟨S500000x128, .f32⟩
  | 111 => ⟨S128x128, .f32⟩
  | 112 => ⟨S500000x128, .f32⟩
  | 113 => ⟨S1x128, .f32⟩
  | 114 => ⟨S500000x128, .f32⟩
  | 115 => ⟨S500000x128, .f32⟩
  | 116 => ⟨S_, .f32⟩
  | 117 => ⟨S500000x128, .f32⟩
  | 118 => ⟨S500000x128, .f32⟩
  | 119 => ⟨S128x64, .f32⟩
  | 120 => ⟨S500000x64, .f32⟩
  | 121 => ⟨S1x64, .f32⟩
  | 122 => ⟨S500000x64, .f32⟩
  | 123 => ⟨S500000x64, .f32⟩
  | 124 => ⟨S_, .f32⟩
  | 125 => ⟨S500000x64, .f32⟩
  | 126 => ⟨S500000x64, .f32⟩
  | 127 => ⟨S64x1, .f32⟩
  | _ => ⟨S100000x128, .f32⟩

abbrev hbmTy0_1 (i : Nat) : BufTy := match i % 128 with
  | 0 => ⟨S500000x1, .f32⟩
  | 1 => ⟨S1x1, .f32⟩
  | 2 => ⟨S500000x1, .f32⟩
  | 3 => ⟨S500000x1, .f32⟩
  | 4 => ⟨S500000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_cst : Ref sig .tc := ⟨.hbm, 52, rfl⟩
abbrev main_call0_v0 : Ref sig .tc := ⟨.hbm, 53, rfl⟩
abbrev main_v31 : Ref sig .tc := ⟨.hbm, 54, rfl⟩
abbrev main_c_4 : Ref sig .tc := ⟨.hbm, 55, rfl⟩
abbrev main_v32 : Ref sig .tc := ⟨.hbm, 56, rfl⟩
abbrev main_v33 : Ref sig .tc := ⟨.hbm, 57, rfl⟩
abbrev main_c_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_7 : Ref sig .tc := ⟨.hbm, 68, rfl⟩
abbrev main_v42 : Ref sig .tc := ⟨.hbm, 69, rfl⟩
abbrev main_cst_8 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_9 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_10 : Ref sig .tc := ⟨.hbm, 90, rfl⟩
abbrev main_v61 : Ref sig .tc := ⟨.hbm, 91, rfl⟩
abbrev main_v62 : Ref sig .tc := ⟨.hbm, 92, rfl⟩
abbrev main_c_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_12 : Ref sig .tc := ⟨.hbm, 101, rfl⟩
abbrev main_v70 : Ref sig .tc := ⟨.hbm, 102, rfl⟩
abbrev main_v71 : Ref sig .tc := ⟨.hbm, 103, rfl⟩
abbrev main_c_13 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call1_cst : Ref sig .tc := ⟨.hbm, 116, rfl⟩
abbrev main_call1_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_call2_cst : Ref sig .tc := ⟨.hbm, 124, rfl⟩
abbrev main_call2_v0 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  transposes_S64x128_S128x64_1_0 : S64x128.Transposes [1, 0] S128x64
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  transposes_S1x64_S64x1_1_0 : S1x64.Transposes [1, 0] S64x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  dot_S500000x128_S128x128_S500000x128_1_0_0_1_n_n_wf : DotDims.WF S500000x128 S128x128 S500000x128 [1] [0] [0] [1] [] []
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.Spec.lean ====
/-
  What the network computes, index by index, on the extended reals.

  A graph layer with mean aggregation gives node `r` and output feature `c` the value

      (Σ_k (msg r k / max (cnt r) 1) · wl k c) + bl c + (Σ_k root r k · wr k c),

  where `msg r k` is the sum of feature `k` over the neighbours of `r`, `cnt r` their number, `root` the
  node's own features, `wl` and `wr` the two weight matrices as they multiply on the right (already
  transposed) and `bl` the bias.  The first layer clamps the result below at zero; the second does not.

  The decoder takes two feature rows `z0 r` and `z1 r` of one pair `r`, multiplies them feature by
  feature, and sends the product through three affine maps with a clamp at zero after the first two:

      h1 r c = max ((Σ_k (z0 r k · z1 r k) · w1 k c) + b1 c) 0
      h2 r c = max ((Σ_k h1 r k · w2 k c) + b2 c) 0
      out r u = (Σ_k h2 r k · w3 k u) + b3 u            (one output column, `u = 0`).

  Every formula concerns ONE row `r`: a row of the result depends only on the same row of the
  row-indexed operands.  So the functions are stated for any number `n` of rows, and the same
  definition reads a block of 5000 rows and the whole array.  Each sum runs over a finite index type;
  no order of the additions is part of a statement.  The two float words (one, zero) stay as words:
  they are the same on both sides of every equation and are never evaluated.
-/
import Idealize.ShloMosaic.PureOps.Ideal
import Idealize.ShloMosaic.Lib.ValueIdx

open scoped BigOperators

noncomputable section

namespace Cert.Spec

open Idealize.ShloMosaic Idealize.ShloMosaic.ValueIdx

/-- The float word of the number one: the least count a mean divides by. -/
abbrev one : EReal := Ideal.ofBits .f32 0x3F800000#32
/-- The float word of zero: where a rectifier clamps. -/
abbrev zero : EReal := Ideal.ofBits .f32 0x00000000#32

/-! ## The graph layer -/

/-- One mean-aggregating graph layer at node `r`, output feature `c`. -/
def sage {n : ℕ} (msg : (⟨2, ![n, 128]⟩ : Shape).Idx → EReal) (cnt : (⟨2, ![n, 1]⟩ : Shape).Idx → EReal)
    (root : (⟨2, ![n, 128]⟩ : Shape).Idx → EReal) (wl : (⟨2, ![128, 128]⟩ : Shape).Idx → EReal)
    (bl : (⟨1, ![128]⟩ : Shape).Idx → EReal) (wr : (⟨2, ![128, 128]⟩ : Shape).Idx → EReal)
    (r : Fin n) (c : Fin 128) : EReal :=
  (∑ k : Fin 128, Ideal.div (msg (ix2 r k)) (max (cnt (ix2 r (0 : Fin 1))) one) * wl (ix2 k c)) + bl (ix1 c)
    + ∑ k : Fin 128, root (ix2 r k) * wr (ix2 k c)

/-- The first layer as an array: the graph layer clamped below at zero. -/
def layer1 {n : ℕ} (msg : (⟨2, ![n, 128]⟩ : Shape).Idx → EReal) (cnt : (⟨2, ![n, 1]⟩ : Shape).Idx → EReal)
    (root : (⟨2, ![n, 128]⟩ : Shape).Idx → EReal) (wl : (⟨2, ![128, 128]⟩ : Shape).Idx → EReal)
    (bl : (⟨1, ![128]⟩ : Shape).Idx → EReal) (wr : (⟨2, ![128, 128]⟩ : Shape).Idx → EReal) :
    (⟨2, ![n, 128]⟩ : Shape).Idx → EReal :=
  fun i => max (sage msg cnt root wl bl wr (i 0) (i 1)) zero

/-- The second layer as an array: the graph layer itself. -/
def layer2 {n : ℕ} (msg : (⟨2, ![n, 128]⟩ : Shape).Idx → EReal) (cnt : (⟨2, ![n, 1]⟩ : Shape).Idx → EReal)
    (root : (⟨2, ![n, 128]⟩ : Shape).Idx → EReal) (wl : (⟨2, ![128, 128]⟩ : Shape).Idx → EReal)
    (bl : (⟨1, ![128]⟩ : Shape).Idx → EReal) (wr : (⟨2, ![128, 128]⟩ : Shape).Idx → EReal) :
    (⟨2, ![n, 128]⟩ : Shape).Idx → EReal :=
  fun i => sage msg cnt root wl bl wr (i 0) (i 1)

/-! ## The decoder -/

/-- The decoder's first hidden row: the feature-wise product of the pair's two rows, through the first
    affine map, clamped below at zero. -/
def hidden1 {n : ℕ} (z0 z1 : (⟨2, ![n, 128]⟩ : Shape).Idx → EReal) (w1 : (⟨2, ![128, 128]⟩ : Shape).Idx → EReal)
    (b1 : (⟨1, ![128]⟩ : Shape).Idx → EReal) (r : Fin n) (c : Fin 128) : EReal :=
  max ((∑ k : Fin 128, (z0 (ix2 r k) * z1 (ix2 r k)) * w1 (ix2 k c)) + b1 (ix1 c)) zero

/-- The decoder's second hidden row. -/
def hidden2 {n : ℕ} (z0 z1 : (⟨2, ![n, 128]⟩ : Shape).Idx → EReal) (w1 : (⟨2, ![128, 128]⟩ : Shape).Idx → EReal)
    (b1 : (⟨1, ![128]⟩ : Shape).Idx → EReal) (w2 : (⟨2, ![128, 64]⟩ : Shape).Idx → EReal)
    (b2 : (⟨1, ![64]⟩ : Shape).Idx → EReal) (r : Fin n) (c : Fin 64) : EReal :=
  max ((∑ k : Fin 128, hidden1 z0 z1 w1 b1 r k * w2 (ix2 k c)) + b2 (ix1 c)) zero

/-- The decoder's score of pair `r` (its one output column `u`). -/
def score {n : ℕ} (z0 z1 : (⟨2, ![n, 128]⟩ : Shape).Idx → EReal) (w1 : (⟨2, ![128, 128]⟩ : Shape).Idx → EReal)
    (b1 : (⟨1, ![128]⟩ : Shape).Idx → EReal) (w2 : (⟨2, ![128, 64]⟩ : Shape).Idx → EReal)
    (b2 : (⟨1, ![64]⟩ : Shape).Idx → EReal) (w3 : (⟨2, ![64, 1]⟩ : Shape).Idx → EReal)
    (b3 : (⟨1, ![1]⟩ : Shape).Idx → EReal) (r : Fin n) (u : Fin 1) : EReal :=
  (∑ k : Fin 64, hidden2 z0 z1 w1 b1 w2 b2 r k * w3 (ix2 k u)) + b3 (ix1 u)

/-- The decoder as an array of one column. -/
def decoder {n : ℕ} (z0 z1 : (⟨2, ![n, 128]⟩ : Shape).Idx → EReal) (w1 : (⟨2, ![128, 128]⟩ : Shape).Idx → EReal)
    (b1 : (⟨1, ![128]⟩ : Shape).Idx → EReal) (w2 : (⟨2, ![128, 64]⟩ : Shape).Idx → EReal)
    (b2 : (⟨1, ![64]⟩ : Shape).Idx → EReal) (w3 : (⟨2, ![64, 1]⟩ : Shape).Idx → EReal)
    (b3 : (⟨1, ![1]⟩ : Shape).Idx → EReal) : (⟨2, ![n, 1]⟩ : Shape).Idx → EReal :=
  fun i => score z0 z1 w1 b1 w2 b2 w3 b3 (i 0) (i 1)

/-! ## A row of the result depends on the same row of the row-indexed operands -/

/-- The graph layer at row `r` of one set of row-indexed operands is the layer at row `r'` of another set
    whenever the two rows hold the same entries. -/
theorem sage_congr_row {n n' : ℕ}
    (msg : (⟨2, ![n, 128]⟩ : Shape).Idx → EReal) (cnt : (⟨2, ![n, 1]⟩ : Shape).Idx → EReal)
    (root : (⟨2, ![n, 128]⟩ : Shape).Idx → EReal)
    (msg' : (⟨2, ![n', 128]⟩ : Shape).Idx → EReal) (cnt' : (⟨2, ![n', 1]⟩ : Shape).Idx → EReal)
    (root' : (⟨2, ![n', 128]⟩ : Shape).Idx → EReal)
    (wl : (⟨2, ![128, 128]⟩ : Shape).Idx → EReal) (bl : (⟨1, ![128]⟩ : Shape).Idx → EReal)
    (wr : (⟨2, ![128, 128]⟩ : Shape).Idx → EReal) (r : Fin n) (r' : Fin n') (c : Fin 128)
    (hm : ∀ k : Fin 128, msg (ix2 r k) = msg' (ix2 r' k))
    (hc : cnt (ix2 r (0 : Fin 1)) = cnt' (ix2 r' (0 : Fin 1)))
    (hr : ∀ k : Fin 128, root (ix2 r k) = root' (ix2 r' k)) :
    sage msg cnt root wl bl wr r c = sage msg' cnt' root' wl bl wr r' c := by
  unfold sage
  rw [hc]
  congr 1
  · congr 1
    exact Finset.sum_congr rfl fun k _ => by rw [hm k]
  · exact Finset.sum_congr rfl fun k _ => by rw [hr k]

/-- The decoder's score at row `r` of one pair of operands is the score at row `r'` of another pair whenever
    the two rows hold the same entries. -/
theorem score_congr_row {n n' : ℕ}
    (z0 z1 : (⟨2, ![n, 128]⟩ : Shape).Idx → EReal) (z0' z1' : (⟨2, ![n', 128]⟩ : Shape).Idx → EReal)
    (w1 : (⟨2, ![128, 128]⟩ : Shape).Idx → EReal) (b1 : (⟨1, ![128]⟩ : Shape).Idx → EReal)
    (w2 : (⟨2, ![128, 64]⟩ : Shape).Idx → EReal) (b2 : (⟨1, ![64]⟩ : Shape).Idx → EReal)
    (w3 : (⟨2, ![64, 1]⟩ : Shape).Idx → EReal) (b3 : (⟨1, ![1]⟩ : Shape).Idx → EReal)
    (r : Fin n) (r' : Fin n') (u : Fin 1)
    (h0 : ∀ k : Fin 128, z0 (ix2 r k) = z0' (ix2 r' k))
    (h1 : ∀ k : Fin 128, z1 (ix2 r k) = z1' (ix2 r' k)) :
    score z0 z1 w1 b1 w2 b2 w3 b3 r u = score z0' z1' w1 b1 w2 b2 w3 b3 r' u := by
  have e1 : ∀ c : Fin 128, hidden1 z0 z1 w1 b1 r c = hidden1 z0' z1' w1 b1 r' c := fun c => by
    unfold hidden1
    congr 2
    exact Finset.sum_congr rfl fun k _ => by rw [h0 k, h1 k]
  have e2 : ∀ c : Fin 64, hidden2 z0 z1 w1 b1 w2 b2 r c = hidden2 z0' z1' w1 b1 w2 b2 r' c := fun c => by
    unfold hidden2
    congr 2
    exact Finset.sum_congr rfl fun k _ => by rw [e1 k]
  unfold score
  congr 1
  exact Finset.sum_congr rfl fun k _ => by rw [e2 k]

end Cert.Spec

end
-- ==== Proof.LibPlainMatmul.lean ====
/-
  A plain matrix product and the one-axis reductions of a matrix, read at an index written by coordinates, at the
  ideal values, for any extents.

  The product of an `[m, k]` matrix by a `[k, n]` matrix accumulated into the zero matrix is, at `(a, b)`, the sum over
  the contracted coordinate `c` of the products of the entries `(a, c)` and `(c, b)`.  A sum over the rows of an
  `[a, b]` matrix (axis 0 dropped) is, at column `j`, the sum over `i` of the entries `(i, j)`; a sum along the rows
  (axis 1 dropped) is, at row `i`, the sum over `j` of the entries `(i, j)`; and a maximum over the rows is, at column
  `j`, the fold of `max` from the accumulator's value over the entries `(i, j)`.  Each sum runs over a finite index
  type, so no order of the additions is part of the statement.
-/
import Idealize.ShloMosaic.Lib.ValueIdx
import Idealize.ShloMosaic.PureOps.Ideal.Laws
import Idealize.ShloMosaic.PureOps.Reduce

open scoped BigOperators

namespace PlainMatmul

open Idealize.ShloMosaic Idealize.ShloMosaic.ValueIdx

/-! ## The plain product -/

/-- The dimension numbers of a plain product: the left operand's columns contracted with the right operand's rows. -/
abbrev dims {m k n : ℕ}
    (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- THE PLAIN PRODUCT AT `(a, b)`, accumulated into zero: the sum over the contracted coordinate. -/
theorem matmul_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (dims w) prec A B (constant (F := Ideal) ⟨2, ![m, n]⟩ .f32 0x00000000#32) (ix2 a b)
      = ∑ c : Fin k, A (ix2 a c) * B (ix2 c b) := by
  rw [Ideal.matmul_constant_zero_apply, ← Equiv.sum_comp (contrEquiv1 (dims w) k rfl rfl).symm]
  refine Finset.sum_congr rfl fun c _ => ?_
  have hc := contrEquiv1_symm_val (dims w) k rfl rfl c
  have l0 : ∀ q : (dims w).contr.Idx, ((dims w).lhsIdx (ix2 a b) q (0 : Fin 2)).val = a.val := fun q => by
    unfold DotDims.lhsIdx
    rw [dif_neg (show ¬(0 : Fin 2) ∈ (dims w).lhsBatch from List.not_mem_nil),
      dif_pos (show (0 : Fin 2) ∈ (dims w).lhsNonContracting from List.mem_singleton.mpr rfl)]
    rfl
  have r1 : ∀ q : (dims w).contr.Idx, ((dims w).rhsIdx (ix2 a b) q (1 : Fin 2)).val = b.val := fun q => by
    unfold DotDims.rhsIdx
    rw [dif_neg (show ¬(1 : Fin 2) ∈ (dims w).rhsBatch from List.not_mem_nil),
      dif_pos (show (1 : Fin 2) ∈ (dims w).rhsNonContracting from List.mem_singleton.mpr rfl)]
    rfl
  have el : (dims w).lhsIdx (ix2 a b) ((contrEquiv1 (dims w) k rfl rfl).symm c) = ix2 a c := by
    funext ax; apply Fin.ext
    match ax with
    | ⟨0, _⟩ => exact l0 _
    | ⟨1, _⟩ => exact ((dims w).lhsIdx_val_of_single (cl := (1 : Fin 2)) rfl _ _).trans hc
  have er : (dims w).rhsIdx (ix2 a b) ((contrEquiv1 (dims w) k rfl rfl).symm c) = ix2 c b := by
    funext ax; apply Fin.ext
    match ax with
    | ⟨0, _⟩ => exact ((dims w).rhsIdx_val_of_single (cr := (0 : Fin 2)) rfl _ _).trans hc
    | ⟨1, _⟩ => exact r1 _
  rw [el, er]

/-! ## The index a reduced index and a coordinate on the dropped axis name -/

/-- Dropping the FIRST axis of `[a, b]`: the index over `j` whose first coordinate is `k` is `(k, j)`. -/
theorem lift_first {a b : ℕ} (h : (⟨2, ![a, b]⟩ : Shape).Reduces [0] (⟨1, ![b]⟩ : Shape)) (j : Fin b)
    (k : Fin ((⟨2, ![a, b]⟩ : Shape).size 0)) :
    h.lift (ix1 j) k = ix2 (⟨k.val, k.isLt⟩ : Fin a) j := by
  funext ax; apply Fin.ext
  fin_cases ax <;> rfl

/-- Dropping the LAST axis of `[a, b]`: the index over `i` whose last coordinate is `k` is `(i, k)`. -/
theorem lift_last {a b : ℕ} (h : (⟨2, ![a, b]⟩ : Shape).Reduces [1] (⟨1, ![a]⟩ : Shape)) (i : Fin a)
    (k : Fin ((⟨2, ![a, b]⟩ : Shape).size 1)) :
    h.lift (ix1 i) k = ix2 i (⟨k.val, k.isLt⟩ : Fin b) := by
  funext ax; apply Fin.ext
  fin_cases ax <;> rfl

/-! ## Sums and a maximum over one axis of a matrix -/

variable {φ : FTy}

/-- A sum over the rows (axis 0 dropped), at column `j`. -/
theorem sum_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  exact Finset.sum_congr rfl fun k _ => congrArg src (lift_first h j k)

/-- A sum along the rows (axis 1 dropped), at row `i`. -/
theorem sum_axis1_apply {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ j : Fin b, src (ix2 i j) := by
  refine (Ideal.multiReduction_add_single src acc h hφ hacc (ix1 i)).trans ?_
  exact Finset.sum_congr rfl fun k _ => congrArg src (lift_last h i k)

/-- A maximum over the rows (axis 0 dropped), at column `j`: the fold of `max` from the accumulator's value. -/
theorem max_axis0_apply {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ src acc h hφ hacc (ix1 j)
      = (Finset.univ : Finset (Fin a)).fold max (Ideal.ofBits φ acc) (fun i => src (ix2 i j)) := by
  refine (Ideal.multiReduction_maximumf_single src acc h hφ hacc (ix1 j)).trans ?_
  have hf : (src ∘ h.lift (ix1 j)) = fun i : Fin a => src (ix2 i j) :=
    funext fun k => congrArg src (lift_first h j k)
  exact congrArg (fun f => Finset.fold max (Ideal.ofBits φ acc) f (Finset.univ : Finset (Fin a))) hf

end PlainMatmul
-- ==== Proof.LibLayout2.lean ====
/-
  A vector laid out as a row or a column and broadcast to a matrix, read at an index written by coordinates, for any
  element type and any extents.  A vector `[b]` made the row `[1, b]` (the same elements, now one row) and broadcast
  down `a` rows ([1, b] → [a, b]: every row a copy of the one row) reads, at `(i, j)`, the vector at `j`; a vector
  `[a]` made the column `[a, 1]` and broadcast along `b` columns reads, at `(i, j)`, the vector at `i`.  A reshape of
  a tensor keeps the elements in row-major order under the new shape, which is what a shape cast does, so these are
  also the readings of a vector reshaped into a row or a column and then broadcast.  Each is two of the library's
  read-at-an-index lemmas, one after the other.
-/
import Idealize.ShloMosaic.Lib.Pipeline.Value
import Idealize.ShloMosaic.Lib.ValueIdx
import Idealize.ShloMosaic.Lib.ValueLayout

open Idealize.ShloMosaic Idealize.ShloMosaic.ValueIdx

namespace Layout2

variable {α : Type}

/-- A vector `[b]` made a row and broadcast down `a` rows reads, at `(i, j)`, the vector at `j`. -/
theorem broadcastTo_row_of_vector_apply {a b : ℕ} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (i : Fin a) (j : Fin b) :
    broadcastTo ⟨2, ![a, b]⟩ (shapeCast ⟨2, ![1, b]⟩ x hc) hb (ix2 i j) = x (ix1 j) := by
  rw [broadcastTo_1b_ab_apply, shapeCast_a_1a_apply]

/-- A vector `[a]` cast to the column `[a, 1]` reads, at `(i, u)`, the operand at `i`, whatever the unit
    coordinate `u`. -/
theorem shapeCast_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_col_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `[a]` made a column and broadcast along `b` columns reads, at `(i, j)`, the vector at `i`. -/
theorem broadcastTo_col_of_vector_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) := by
  rw [broadcastTo_col_apply, shapeCast_col_apply]

end Layout2
-- ==== Proof.BodyLayers.lean ====
/-
  The first two kernel bodies (the two graph layers) read at one index, at the ideal values.

  Each body takes one block of 5000 rows: the count column, the neighbour sums, the node's own features, the two weight
  matrices as they multiply on the right, and the bias.  At the ideal values a change of float format is the identity
  and a cast of a block to its own shape changes nothing; the count column clamped below at one and broadcast along the
  128 features reads, at `(r, k)`, the clamped count of row `r`; the bias made a row and broadcast down the rows reads,
  at `(r, c)`, the bias at `c`; and each product into the zero block is, at `(r, c)`, the sum over the contracted
  feature `k` of the products of the entries `(r, k)` and `(k, c)`.  Put together, the stored value at `(r, c)` is

      (Σ_k (msg r k / max (cnt r) 1) · wl k c) + bl c + (Σ_k root r k · wr k c),

  clamped below at zero in the first layer and as it stands in the second: the specification's graph layer.
-/
import proofs.«116149_j64888365907988_2_alg».proof.Proof.Gen.KernelIdeal.Skeleton
import proofs.«116149_j64888365907988_2_alg».proof.Proof.Spec
import proofs.«116149_j64888365907988_2_alg».proof.Proof.LibPlainMatmul
import proofs.«116149_j64888365907988_2_alg».proof.Proof.LibLayout2
import Idealize.ShloMosaic.Lib.ValueIdx
import Idealize.ShloMosaic.Lib.Pipeline.Value

open scoped BigOperators

namespace Cert.KernelIdeal.Body

open Idealize.ShloMosaic Idealize.ShloMosaic.ValueIdx Cert.KernelIdeal

/-! ## The pieces of a graph layer's body, each read at one index -/

/-- The neighbour sums divided by the count column clamped below at one, at `(r, k)`: the casts to the same
    shape change nothing, and the column broadcast along the features reads the column at row `r`. -/
theorem mean_apply (cnt : FVec Ideal S5000x1 .f32) (msg : FVec Ideal S5000x128 .f32)
    (hc : S5000x1.ShapeCasts S5000x1) (hm : S5000x128.ShapeCasts S5000x128) (hb : S5000x1.Broadcasts S5000x128)
    (r : Fin 5000) (k : Fin 128) :
    divf (shapeCast S5000x128 msg hm)
        (broadcastTo S5000x128 (maximumf (shapeCast S5000x1 cnt hc)
          (broadcast S5000x1 (Scalar.ofBits (F := Ideal) .f32 0x3F800000#32))) hb) (ix2 r k)
      = Ideal.div (msg (ix2 r k)) (max (cnt (ix2 r (0 : Fin 1))) Spec.one) := by
  rw [shapeCast_self, shapeCast_self]
  refine (divf_apply _ _ _).trans ?_
  rw [Layout2.broadcastTo_col_apply]
  rfl

/-- The bias made a row and broadcast down the rows reads, at `(r, c)`, the bias at `c`. -/
theorem bias_apply (bl : FVec Ideal S128 .f32) (hs : S128.ShapeCasts S1x128) (hb : S1x128.Broadcasts S5000x128)
    (r : Fin 5000) (c : Fin 128) :
    broadcastTo S5000x128 (shapeCast S1x128 bl hs) hb (ix2 r c) = bl (ix1 c) :=
  Layout2.broadcastTo_row_of_vector_apply bl hs hb r c

/-- A `[5000, 128]` block times a `[128, 128]` weight into the zero block, at `(r, c)`: the sum over the contracted
    feature. -/
theorem product_apply {φ₁ φ₂ : FTy} (A : FVec Ideal S5000x128 φ₁) (B : FVec Ideal S128x128 φ₂) (r : Fin 5000) (c : Fin 128) :
    matmul dot_S5000x128_S128x128_S5000x128_1_0_0_1_n_n none A B (constant (F := Ideal) S5000x128 .f32 0x00000000#32) (ix2 r c)
      = ∑ k : Fin 128, A (ix2 r k) * B (ix2 k c) :=
  PlainMatmul.matmul_zero_apply (m := 5000) (k := 128) (n := 128) Facts₀.dot_S5000x128_S128x128_S5000x128_1_0_0_1_n_n_wf none A B r c

/-! ## The graph layer's body -/

/-- The body both layers share, before the first layer's clamp: the mean of the neighbour sums through the left weight,
    plus the bias, plus the node's own features (already in the narrow format) through the right weight. -/
theorem sage_apply (cnt : FVec Ideal S5000x1 .f32) (msg : FVec Ideal S5000x128 .f32) (root : FVec Ideal S5000x128 .bf16)
    (wl wr : FVec Ideal S128x128 .f32) (bl : FVec Ideal S128 .f32)
    (hc : S5000x1.ShapeCasts S5000x1) (hm : S5000x128.ShapeCasts S5000x128) (hb : S5000x1.Broadcasts S5000x128)
    (hw : S128x128.ShapeCasts S128x128) (hs : S128.ShapeCasts S1x128) (hr : S1x128.Broadcasts S5000x128)
    (ht : FTy.bits .bf16 < FTy.bits .f32) (r : Fin 5000) (c : Fin 128) :
    addf (addf
        (matmul dot_S5000x128_S128x128_S5000x128_1_0_0_1_n_n none
          (truncf .bf16 (divf (shapeCast S5000x128 msg hm)
            (broadcastTo S5000x128 (maximumf (shapeCast S5000x1 cnt hc)
              (broadcast S5000x1 (Scalar.ofBits (F := Ideal) .f32 0x3F800000#32))) hb)) ht)
          (truncf .bf16 (shapeCast S128x128 wl hw) ht)
          (constant (F := Ideal) S5000x128 .f32 0x00000000#32))
        (broadcastTo S5000x128 (shapeCast S1x128 bl hs) hr))
      (matmul dot_S5000x128_S128x128_S5000x128_1_0_0_1_n_n none root
          (truncf .bf16 (shapeCast S128x128 wr hw) ht)
          (constant (F := Ideal) S5000x128 .f32 0x00000000#32)) (ix2 r c)
      = Spec.sage (n := 5000) msg cnt root wl bl wr r c := by
  refine (addf_apply _ _ _).trans ?_
  refine (congrArg (· + _) (addf_apply _ _ _)).trans ?_
  rw [product_apply, product_apply, bias_apply, shapeCast_self wl, shapeCast_self wr]
  unfold Spec.sage
  refine congrArg₂ (· + ·) (congrArg (· + _) (Finset.sum_congr rfl fun k _ => ?_)) rfl
  exact congrArg (· * _) (mean_apply cnt msg hc hm hb r k)

/-! ## The two layers' stored values -/

/-- THE FIRST LAYER'S STORED VALUE at `(r, c)`: the graph layer clamped below at zero. -/
theorem pay_layer1 (cnt : Vec Ideal S5000x1 .f32) (msg root : Vec Ideal S5000x128 .f32)
    (wl wr : Vec Ideal S128x128 .f32) (bl : Vec Ideal S128 .f32) (r : Fin 5000) (c : Fin 128) :
    Gen.k0_pay1 (F := Ideal) cnt msg root wl wr bl (ix2 r c)
      = Cert.Spec.layer1 (n := 5000) msg cnt root wl bl wr (ix2 r c) := by
  unfold Gen.k0_pay1 Spec.layer1
  refine congrArg (max · Spec.zero) ?_
  exact sage_apply cnt msg (truncf .bf16 root Gen.bitsLt_bf16_f32) wl wr bl _ _ _ _ _ _ _ r c

/-- THE SECOND LAYER'S STORED VALUE at `(r, c)`: the graph layer itself. -/
theorem pay_layer2 (cnt : Vec Ideal S5000x1 .f32) (msg : Vec Ideal S5000x128 .f32) (root : Vec Ideal S5000x128 .bf16)
    (wl wr : Vec Ideal S128x128 .f32) (bl : Vec Ideal S128 .f32) (r : Fin 5000) (c : Fin 128) :
    Gen.k1_pay1 (F := Ideal) cnt msg root wl wr bl (ix2 r c)
      = Cert.Spec.layer2 (n := 5000) msg cnt root wl bl wr (ix2 r c) := by
  unfold Gen.k1_pay1 Spec.layer2
  rw [shapeCast_self root]
  exact sage_apply cnt msg root wl wr bl _ _ _ _ _ _ _ r c

end Cert.KernelIdeal.Body
-- ==== Proof.BodyDecoder.lean ====
/-
  The third kernel body (the decoder) read at one index, at the ideal values.

  The body takes one block of 5000 pairs: the two feature rows of each pair, and the three affine maps' weight matrices
  (as they multiply on the right) and biases.  At the ideal values a change of float format is the identity and a cast
  of a block to its own shape changes nothing; a bias made a row and broadcast down the rows reads, at `(r, c)`, the
  bias at `c`; and each product into the zero block is, at `(r, c)`, the sum over the contracted feature.  So one
  affine map reads, at `(r, c)`, `(Σ_j A r j · W j c) + b c`, whatever the extents, and the stored value at `(r, u)`
  is the three maps one after the other on the feature-wise product of the pair's rows, with the clamp at zero after
  the first two:

      h1 r c = max ((Σ_k (z0 r k · z1 r k) · w1 k c) + b1 c) 0
      h2 r c = max ((Σ_k h1 r k · w2 k c) + b2 c) 0
      out r u = (Σ_k h2 r k · w3 k u) + b3 u,

  the specification's decoder.
-/
import proofs.«116149_j64888365907988_2_alg».proof.Proof.Gen.KernelIdeal.Skeleton
import proofs.«116149_j64888365907988_2_alg».proof.Proof.Spec
import proofs.«116149_j64888365907988_2_alg».proof.Proof.LibPlainMatmul
import proofs.«116149_j64888365907988_2_alg».proof.Proof.LibLayout2
import Idealize.ShloMosaic.Lib.ValueIdx
import Idealize.ShloMosaic.Lib.Pipeline.Value

open scoped BigOperators

namespace Cert.KernelIdeal.Body

open Idealize.ShloMosaic Idealize.ShloMosaic.ValueIdx Cert.KernelIdeal

/-! ## One affine map of the decoder, read at one index -/

/-- A block times a weight matrix (cast to its own shape and narrowed, both the identity at the ideal values) into the
    zero block, plus a bias made a row and broadcast down the rows: at `(r, c)`, the sum over the contracted feature
    of the products of the entries `(r, j)` and `(j, c)`, plus the bias at `c`. -/
theorem affine_apply {m k n : ℕ} {φ : FTy}
    (w : DotDims.WF ⟨2, ![m, k]⟩ ⟨2, ![k, n]⟩ ⟨2, ![m, n]⟩ [1] [0] [0] [1] [] [])
    (A : FVec Ideal ⟨2, ![m, k]⟩ φ) (W : FVec Ideal ⟨2, ![k, n]⟩ .f32) (b : FVec Ideal ⟨1, ![n]⟩ .f32)
    (hw : (⟨2, ![k, n]⟩ : Shape).ShapeCasts ⟨2, ![k, n]⟩) (hs : (⟨1, ![n]⟩ : Shape).ShapeCasts ⟨2, ![1, n]⟩)
    (hb : (⟨2, ![1, n]⟩ : Shape).Broadcasts ⟨2, ![m, n]⟩) (ht : FTy.bits .bf16 < FTy.bits .f32)
    (r : Fin m) (c : Fin n) :
    addf (matmul (PlainMatmul.dims w) none A (truncf .bf16 (shapeCast ⟨2, ![k, n]⟩ W hw) ht)
            (constant (F := Ideal) ⟨2, ![m, n]⟩ .f32 0x00000000#32))
         (broadcastTo ⟨2, ![m, n]⟩ (shapeCast ⟨2, ![1, n]⟩ b hs) hb) (ix2 r c)
      = (∑ j : Fin k, A (ix2 r j) * W (ix2 j c)) + b (ix1 c) := by
  refine (addf_apply _ _ _).trans ?_
  refine (congrArg₂ (· + ·) (PlainMatmul.matmul_zero_apply w none A _ r c)
    (Layout2.broadcastTo_row_of_vector_apply b hs hb r c)).trans ?_
  rw [shapeCast_self W]
  rfl

/-! ## The decoder's stored value -/

/-- THE DECODER'S STORED VALUE at `(r, u)`: the score of pair `r`. -/
theorem pay_decoder (z0 z1 : Vec Ideal S5000x128 .bf16) (w1 : Vec Ideal S128x128 .f32) (b1 : Vec Ideal S128 .f32)
    (w2 : Vec Ideal S128x64 .f32) (b2 : Vec Ideal S64 .f32) (w3 : Vec Ideal S64x1 .f32) (b3 : Vec Ideal S1 .f32)
    (r : Fin 5000) (u : Fin 1) :
    Gen.k2_pay1 (F := Ideal) z0 z1 w1 b1 w2 b2 w3 b3 (ix2 r u)
      = Cert.Spec.decoder (n := 5000) z0 z1 w1 b1 w2 b2 w3 b3 (ix2 r u) := by
  unfold Gen.k2_pay1 Spec.decoder Spec.score
  refine (affine_apply (m := 5000) (k := 64) (n := 1) Facts₀.dot_S5000x64_S64x1_S5000x1_1_0_0_1_n_n_wf _ w3 b3 _ _ _ _ r u).trans ?_
  refine congrArg (· + _) (Finset.sum_congr rfl fun k _ => congrArg (· * _) ?_)
  unfold Spec.hidden2
  refine congrArg (max · Spec.zero) ?_
  refine (affine_apply (m := 5000) (k := 128) (n := 64) Facts₀.dot_S5000x128_S128x64_S5000x64_1_0_0_1_n_n_wf _ w2 b2 _ _ _ _ r k).trans ?_
  refine congrArg (· + _) (Finset.sum_congr rfl fun j _ => congrArg (· * _) ?_)
  unfold Spec.hidden1
  refine congrArg (max · Spec.zero) ?_
  refine (affine_apply (m := 5000) (k := 128) (n := 128) Facts₀.dot_S5000x128_S128x128_S5000x128_1_0_0_1_n_n_wf _ w1 b1 _ _ _ _ r j).trans ?_
  refine congrArg (· + _) (Finset.sum_congr rfl fun i _ => congrArg (· * _) ?_)
  rw [shapeCast_self z0, shapeCast_self z1]
  rfl

end Cert.KernelIdeal.Body
-- ==== Proof.KRun.lean ====
/-
  The idealized kernel program's run, with the returned array named.

  The program is seven stretches one after another: host operations, the first graph layer's grid of blocks, host
  operations, the second layer's grid, host operations, the decoder's grid, and one last reshape.  The contents of every
  buffer at each boundary are a fold from the launch memory: a stretch of host operations applies them in order, and a
  grid leaves each of its arrays at what its blocks' write-backs leave and every other buffer as it found it.  The
  statement here is the frame statement with one more conjunct: when the run ends, the returned buffer holds what the
  last fold holds there.  Every execution terminates and faults nowhere for the same reason the frame does.
-/
import proofs.«116149_j64888365907988_2_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; at the end the returned buffer holds the
    last boundary's contents there, and every argument array is as launched. -/
theorem run_result : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c)⟩)

end Cert.KernelIdeal.Net

end
-- ==== Proof.KHost.lean ====
/-
  The host operations around the three grids, as functions of their operands, and the whole computation of the
  idealized kernel program as one function of the fifteen argument arrays.

  Around the grids the program slices the edge list into its sources and destinations, counts the edges arriving at
  each node (a scatter of ones added at the destinations), sums a feature array over each node's arriving edges (a
  gather of the sources' rows scattered and added at the destinations), picks the rows of a feature array named by a
  list of indices, and transposes the weight matrices.  A negative index counts from the end: the number of nodes is
  added to it first.  A change of float format is the identity on the extended reals.  Which element a gather or a
  scatter reads depends on the index arrays' values, so these operations are kept as they are printed and never read
  at an index: both programs apply the same operations to the same operands.
-/
import proofs.«116149_j64888365907988_2_alg».proof.Proof.Gen.KernelIdeal
import proofs.«116149_j64888365907988_2_alg».proof.Proof.Spec
import Idealize.ShloMosaic.PureOps.Ideal

noncomputable section

namespace Cert.KernelIdeal.Net

open Cert.KernelIdeal Cert.KernelIdeal.Facts₀ Cert.KernelIdeal.Facts Idealize.ShloMosaic

/-- The edges' source nodes: row 0 of the edge list. -/
def edgeSrc (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The edges' destination nodes: row 1 of the edge list. -/
def edgeDst (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- An edge index counted from the end when negative: the number of nodes is added to it. -/
def wrapEdge (s : (⟨S1600000, .i32⟩ : BufTy).Contents (Elt Ideal)) : (⟨S1600000, .i32⟩ : BufTy).Contents (Elt Ideal) :=
  select (cmpi CmpIPredicate.slt s (broadcastInDim S1600000 ![] bcast_S_S1600000 (constantI S_ 32 0#32)))
    (addi s (broadcastInDim S1600000 ![] bcast_S_S1600000 (constantI S_ 32 100000#32))) s

/-- The sum of a feature array's rows over each node's arriving edges: the sources' rows gathered, then scattered and
    added at the destinations into zeros. -/
def nbrSum (feat : (⟨S100000x128, .bf16⟩ : BufTy).Contents (Elt Ideal))
    (s d : (⟨S1600000, .i32⟩ : BufTy).Contents (Elt Ideal)) : (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (extf .f32 (Host.gather gather_S100000x128_S1600000x1_S1600000x128_1_0_n_n_0_1_1128 feat
      (broadcastInDim S1600000x1 ![0] bcast_S1600000_S1600000x1_0 (wrapEdge s))) bitsLt_bf16_f32)

/-- The number of edges arriving at each node, as a column: ones scattered and added at the destinations into zeros. -/
def nbrCount (d : (⟨S1600000, .i32⟩ : BufTy).Contents (Elt Ideal)) : (⟨S100000x1, .f32⟩ : BufTy).Contents (Elt Ideal) :=
  broadcastInDim S100000x1 ![0] bcast_S100000_S100000x1_0
    (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))

/-- The pairs' first nodes: column 0 of the pair list. -/
def pairFst (p : (⟨S500000x2, .i32⟩ : BufTy).Contents (Elt Ideal)) : (⟨S500000, .i32⟩ : BufTy).Contents (Elt Ideal) :=
  shapeCast S500000 (extractStridedSlice S500000x1 ![0, 0] p slices_S500000x2_S500000x1_0_0) shapeCasts_S500000x1_S500000

/-- The pairs' second nodes: column 1 of the pair list. -/
def pairSnd (p : (⟨S500000x2, .i32⟩ : BufTy).Contents (Elt Ideal)) : (⟨S500000, .i32⟩ : BufTy).Contents (Elt Ideal) :=
  shapeCast S500000 (extractStridedSlice S500000x1 ![0, 1] p slices_S500000x2_S500000x1_0_1) shapeCasts_S500000x1_S500000

/-- A pair index counted from the end when negative. -/
def wrapPair (s : (⟨S500000, .i32⟩ : BufTy).Contents (Elt Ideal)) : (⟨S500000, .i32⟩ : BufTy).Contents (Elt Ideal) :=
  select (cmpi CmpIPredicate.slt s (broadcastInDim S500000 ![] bcast_S_S500000 (constantI S_ 32 0#32)))
    (addi s (broadcastInDim S500000 ![] bcast_S_S500000 (constantI S_ 32 100000#32))) s

/-- The rows of a feature array named by a list of node indices. -/
def pickRows (feat : (⟨S100000x128, .bf16⟩ : BufTy).Contents (Elt Ideal))
    (s : (⟨S500000, .i32⟩ : BufTy).Contents (Elt Ideal)) : (⟨S500000x128, .bf16⟩ : BufTy).Contents (Elt Ideal) :=
  Host.gather gather_S100000x128_S500000x1_S500000x128_1_0_n_n_0_1_1128 feat
    (broadcastInDim S500000x1 ![0] bcast_S500000_S500000x1_0 (wrapPair s))

/-- A square weight matrix transposed. -/
def tr128 (w : (⟨S128x128, .f32⟩ : BufTy).Contents (Elt Ideal)) : (⟨S128x128, .f32⟩ : BufTy).Contents (Elt Ideal) :=
  transpose S128x128 [1, 0] w transposes_S128x128_S128x128_1_0
/-- The decoder's second weight matrix transposed. -/
def tr64 (w : (⟨S64x128, .f32⟩ : BufTy).Contents (Elt Ideal)) : (⟨S128x64, .f32⟩ : BufTy).Contents (Elt Ideal) :=
  transpose S128x64 [1, 0] w transposes_S64x128_S128x64_1_0
/-- The decoder's last weight row transposed into a column. -/
def tr1 (w : (⟨S1x64, .f32⟩ : BufTy).Contents (Elt Ideal)) : (⟨S64x1, .f32⟩ : BufTy).Contents (Elt Ideal) :=
  transpose S64x1 [1, 0] w transposes_S1x64_S64x1_1_0

/-! ## The whole computation -/

/-- The first layer's result from the arguments: node features, edge list, and the layer's two weights and bias. -/
def netLayer1 (x : (⟨S100000x128, .f32⟩ : BufTy).Contents (Elt Ideal)) (e : (⟨S2x1600000, .i32⟩ : BufTy).Contents (Elt Ideal))
    (wl : (⟨S128x128, .f32⟩ : BufTy).Contents (Elt Ideal)) (bl : (⟨S128, .f32⟩ : BufTy).Contents (Elt Ideal))
    (wr : (⟨S128x128, .f32⟩ : BufTy).Contents (Elt Ideal)) : (⟨2, ![100000, 128]⟩ : Shape).Idx → EReal :=
  Cert.Spec.layer1 (n := 100000) (nbrSum (truncf (F := Ideal) (s := S100000x128) (φ := .f32) .bf16 x bitsLt_bf16_f32) (edgeSrc e) (edgeDst e)) (nbrCount (edgeDst e)) x
    (tr128 wl) bl (tr128 wr)

/-- The second layer's result from the first layer's. -/
def netLayer2 (h : (⟨2, ![100000, 128]⟩ : Shape).Idx → EReal) (e : (⟨S2x1600000, .i32⟩ : BufTy).Contents (Elt Ideal))
    (wl : (⟨S128x128, .f32⟩ : BufTy).Contents (Elt Ideal)) (bl : (⟨S128, .f32⟩ : BufTy).Contents (Elt Ideal))
    (wr : (⟨S128x128, .f32⟩ : BufTy).Contents (Elt Ideal)) : (⟨2, ![100000, 128]⟩ : Shape).Idx → EReal :=
  Cert.Spec.layer2 (n := 100000) (nbrSum h (edgeSrc e) (edgeDst e)) (nbrCount (edgeDst e)) h (tr128 wl) bl (tr128 wr)

/-- The decoder's one-column result from the second layer's result and the pair list. -/
def netScores (z : (⟨2, ![100000, 128]⟩ : Shape).Idx → EReal) (p : (⟨S500000x2, .i32⟩ : BufTy).Contents (Elt Ideal))
    (w1 : (⟨S128x128, .f32⟩ : BufTy).Contents (Elt Ideal)) (b1 : (⟨S128, .f32⟩ : BufTy).Contents (Elt Ideal))
    (w2 : (⟨S64x128, .f32⟩ : BufTy).Contents (Elt Ideal)) (b2 : (⟨S64, .f32⟩ : BufTy).Contents (Elt Ideal))
    (w3 : (⟨S1x64, .f32⟩ : BufTy).Contents (Elt Ideal)) (b3 : (⟨S1, .f32⟩ : BufTy).Contents (Elt Ideal)) :
    (⟨2, ![500000, 1]⟩ : Shape).Idx → EReal :=
  Cert.Spec.decoder (n := 500000) (pickRows z (pairFst p)) (pickRows z (pairSnd p)) (tr128 w1) b1 (tr64 w2) b2 (tr1 w3) b3

end Cert.KernelIdeal.Net

end
-- ==== Proof.KLayer1.lean ====
/-
  The first graph layer's grid of blocks writes the layer of the whole arrays.

  The grid has twenty points; point t reads rows 5000 t … 5000 t + 4999 of the three row-indexed operands (the
  neighbour sums, the neighbour counts, the node features) and the whole of the two weight matrices and the bias, and
  writes the same rows of the result.  A row of the layer depends only on the same row of the row-indexed operands, so
  the block a point writes is the layer of the whole arrays restricted to that point's rows; the twenty blocks of rows
  tile the result, so the result array ends holding the layer of the whole arrays.  The arrays are those the grid finds
  when it is entered, whatever they hold.
-/
import proofs.«116149_j64888365907988_2_alg».proof.Proof.Gen.KernelIdeal.Frame
import proofs.«116149_j64888365907988_2_alg».proof.Proof.Spec
import Idealize.ShloMosaic.Lib.Pipeline.Value
import Idealize.ShloMosaic.Lib.ValueIdx

set_option maxRecDepth 16384

noncomputable section

namespace Cert.KernelIdeal.Net

open Cert.KernelIdeal Cert.KernelIdeal.Gen
open Idealize.ShloMosaic Idealize.ShloMosaic.ValueIdx Idealize.ShloMosaic.TcCoe Idealize.SL.Sem
open Idealize.ShloMosaic.Pipeline (Dat Cfg Window)

theorem origin2 : (![0, 0] : Fin 2 → Nat) = fun _ => 0 := funext fun a => by fin_cases a <;> rfl
theorem origin1 : (![0] : Fin 1 → Nat) = fun _ => 0 := funext fun a => by fin_cases a <;> rfl

variable (V : (c : Dev nD) → (b : Ref sig .tc) → Buf (Elt Ideal) ((c : Thread nD τ).loc b))

/-- The block index maps over the twenty points: every row-indexed window moves with the result's window along the
    rows and sits at column block zero; the weights and the bias sit at block zero; the result's row block is below
    twenty. -/
theorem layer1_index_maps : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (1 : Fin 2) = 0 ∧ win0_6.index t (0 : Fin 2) ≤ 19 :=
  (by decide +kernel : ∀ t : Fin grid0.N, _)

/-- Every one of the twenty row blocks is some point's. -/
theorem layer1_blocks_onto : ∀ q : Fin 20, ∃ t : Fin cfg0.N, win0_6.index t = ![q.val, 0] :=
  (by decide +kernel : ∀ q : Fin 20, ∃ t : Fin grid0.N, win0_6.index t = ![q.val, 0])

set_option maxHeartbeats 4000000 in
/-- WHAT POINT `t` WRITES BACK is the layer of the whole arrays, read through the point's block of rows. -/
theorem layer1_flushed
    (hpay : ∀ (cnt : Vec Ideal S5000x1 .f32) (msg root : Vec Ideal S5000x128 .f32) (wl wr : Vec Ideal S128x128 .f32)
      (bl : Vec Ideal S128 .f32) (r : Fin 5000) (k : Fin 128),
      k0_pay1 (F := Ideal) cnt msg root wl wr bl (ix2 r k) = Cert.Spec.layer1 (n := 5000) msg cnt root wl bl wr (ix2 r k))
    (c : Dev nD) (t : Fin cfg0.N) :
    (dat0 V c).flushed 6 t = ((cfg0.win 6).blk t).view.read (Elt Ideal)
      (Cert.Spec.layer1 (n := 100000) (V c main_v27) (V c main_v8) (V c main_arg0) (V c main_v9) (V c main_arg4) (V c main_v10)) := by
  show (cfg0.win 6).cut (grid0.coords t) ((dat0 V c).after 6 t) = _
  rw [after0_6]
  unfold out0_6
  rw [View.canon_unit_zero origin2]
  simp only [View.ld_unit_zero (S := S5000x128) origin2, View.ld_unit_zero (S := S5000x1) origin2,
    View.ld_unit_zero (S := S128x128) origin2, View.ld_unit_zero (S := S128) origin1]
  obtain ⟨e00, e01, e10, e11, e20, e21, e30, e31, e40, e50, e51, e61, e6b⟩ := layer1_index_maps t
  -- the weights' and the bias's blocks are the whole arrays
  have hw3 : iblk0 V c 3 t = V c main_v9 := by
    funext y
    show V c main_v9 (((cfg0.win 3).blk t).view.emb y) = V c main_v9 y
    refine congrArg (V c main_v9) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have hw4 : iblk0 V c 4 t = V c main_arg4 := by
    funext y
    show V c main_arg4 (((cfg0.win 4).blk t).view.emb y) = V c main_arg4 y
    refine congrArg (V c main_arg4) (funext fun a => Fin.ext ?_)
    match a with
    | ⟨0, _⟩ => show win0_4.index t (0 : Fin 1) * 128 + 1 * (y 0).val = (y 0).val; omega
  have hw5 : iblk0 V c 5 t = V c main_v10 := by
    funext y
    show V c main_v10 (((cfg0.win 5).blk t).view.emb y) = V c main_v10 y
    refine congrArg (V c main_v10) (funext fun a => Fin.ext ?_)
    match a with
    | ⟨0, _⟩ => show win0_5.index t (0 : Fin 2) * 128 + 1 * (y 0).val = (y 0).val; omega
    | ⟨1, _⟩ => show win0_5.index t (1 : Fin 2) * 128 + 1 * (y 1).val = (y 1).val; omega
  funext j
  obtain ⟨r, cc, rfl⟩ : ∃ (r : Fin 5000) (cc : Fin 128), j = ix2 r cc := ⟨j 0, j 1, eq_ix2 j⟩
  refine (hpay (iblk0 V c 1 t) (iblk0 V c 0 t) (iblk0 V c 2 t) (iblk0 V c 3 t) (iblk0 V c 5 t) (iblk0 V c 4 t) r cc).trans ?_
  rw [hw3, hw4, hw5]
  have hcol : (((cfg0.win 6).blk t).view.emb (ix2 r cc)) 1 = cc :=
    Fin.ext (by show win0_6.index t (1 : Fin 2) * 128 + 1 * cc.val = cc.val; omega)
  show max (Cert.Spec.sage (n := 5000) (iblk0 V c 0 t) (iblk0 V c 1 t) (iblk0 V c 2 t) (V c main_v9) (V c main_arg4) (V c main_v10) r cc) Cert.Spec.zero
    = max (Cert.Spec.sage (n := 100000) (V c main_v27) (V c main_v8) (V c main_arg0) (V c main_v9) (V c main_arg4) (V c main_v10)
        ((((cfg0.win 6).blk t).view.emb (ix2 r cc)) 0) ((((cfg0.win 6).blk t).view.emb (ix2 r cc)) 1)) Cert.Spec.zero
  rw [hcol]
  refine congrArg (fun z => max z Cert.Spec.zero) ?_
  refine Cert.Spec.sage_congr_row _ _ _ _ _ _ _ _ _ r _ cc (fun k => ?_) ?_ (fun k => ?_)
  · show V c main_v27 (((cfg0.win 0).blk t).view.emb (ix2 r k)) = V c main_v27 (ix2 ((((cfg0.win 6).blk t).view.emb (ix2 r cc)) 0) k)
    refine congrArg (V c main_v27) (funext fun a => Fin.ext ?_)
    match a with
    | ⟨0, _⟩ => show win0_0.index t (0 : Fin 2) * 5000 + 1 * r.val = win0_6.index t (0 : Fin 2) * 5000 + 1 * r.val; omega
    | ⟨1, _⟩ => show win0_0.index t (1 : Fin 2) * 128 + 1 * k.val = k.val; omega
  · show V c main_v8 (((cfg0.win 1).blk t).view.emb (ix2 r (0 : Fin 1))) = V c main_v8 (ix2 ((((cfg0.win 6).blk t).view.emb (ix2 r cc)) 0) (0 : Fin 1))
    refine congrArg (V c main_v8) (funext fun a => Fin.ext ?_)
    match a with
    | ⟨0, _⟩ => show win0_1.index t (0 : Fin 2) * 5000 + 1 * r.val = win0_6.index t (0 : Fin 2) * 5000 + 1 * r.val; omega
    | ⟨1, _⟩ => show win0_1.index t (1 : Fin 2) * 1 + 1 * 0 = 0; omega
  · show V c main_arg0 (((cfg0.win 2).blk t).view.emb (ix2 r k)) = V c main_arg0 (ix2 ((((cfg0.win 6).blk t).view.emb (ix2 r cc)) 0) k)
    refine congrArg (V c main_arg0) (funext fun a => Fin.ext ?_)
    match a with
    | ⟨0, _⟩ => show win0_2.index t (0 : Fin 2) * 5000 + 1 * r.val = win0_6.index t (0 : Fin 2) * 5000 + 1 * r.val; omega
    | ⟨1, _⟩ => show win0_2.index t (1 : Fin 2) * 128 + 1 * k.val = k.val; omega

/-- An index of the result is in point `t`'s block iff each coordinate is in the block's range on its axis. -/
theorem layer1_mem_block (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v28).slice (win0_6.rect t)).set ↔ _
  rw [View.set_slice_whole, Rect.mem_set_unit]
  exact Iff.rfl

/-- Every index of the result is in some point's block: row `r` is in row block `r / 5000`. -/
theorem layer1_cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := layer1_blocks_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [layer1_mem_block]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE RESULT ARRAY after the grid: the first layer of the arrays the grid found. -/
theorem layer1_array
    (hpay : ∀ (cnt : Vec Ideal S5000x1 .f32) (msg root : Vec Ideal S5000x128 .f32) (wl wr : Vec Ideal S128x128 .f32)
      (bl : Vec Ideal S128 .f32) (r : Fin 5000) (k : Fin 128),
      k0_pay1 (F := Ideal) cnt msg root wl wr bl (ix2 r k) = Cert.Spec.layer1 (n := 5000) msg cnt root wl bl wr (ix2 r k))
    (c : Dev nD) :
    (dat0 V c).arrAt 6 cfg0.N
      = Cert.Spec.layer1 (n := 100000) (V c main_v27) (V c main_v8) (V c main_arg0) (V c main_v9) (V c main_arg4) (V c main_v10) :=
  (dat0 V c).arrAt_eq_of_cover 6 _ (fun t _ => layer1_flushed V hpay c t) layer1_cover

end Cert.KernelIdeal.Net

end
-- ==== Proof.KLayer2.lean ====
/-
  The second graph layer's grid of blocks writes the layer of the whole arrays.

  As for the first layer: twenty points, point t reading rows 5000 t … 5000 t + 4999 of the neighbour sums, the
  neighbour counts and the first layer's result, and the whole of the weights and the bias, and writing the same rows
  of the result; the layer is not clamped.  A row of the layer depends only on the same row of the row-indexed
  operands, and the twenty blocks of rows tile the result, so the result array ends holding the second layer of the
  arrays the grid found.
-/
import proofs.«116149_j64888365907988_2_alg».proof.Proof.Gen.KernelIdeal.Frame
import proofs.«116149_j64888365907988_2_alg».proof.Proof.Spec
import proofs.«116149_j64888365907988_2_alg».proof.Proof.KLayer1
import Idealize.ShloMosaic.Lib.Pipeline.Value
import Idealize.ShloMosaic.Lib.ValueIdx

set_option maxRecDepth 16384

noncomputable section

namespace Cert.KernelIdeal.Net

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

/-- The block index maps over the twenty points of the second grid: every row-indexed window moves with the result's window along the
    rows and sits at column block zero; the weights and the bias sit at block zero; the result's row block is below
    twenty. -/
theorem layer2_index_maps : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (1 : Fin 2) = 0 ∧ win1_6.index t (0 : Fin 2) ≤ 19 :=
  (by decide +kernel : ∀ t : Fin grid1.N, _)

/-- Every one of the twenty row blocks is some point's. -/
theorem layer2_blocks_onto : ∀ q : Fin 20, ∃ t : Fin cfg1.N, win1_6.index t = ![q.val, 0] :=
  (by decide +kernel : ∀ q : Fin 20, ∃ t : Fin grid1.N, win1_6.index t = ![q.val, 0])

set_option maxHeartbeats 4000000 in
/-- WHAT POINT `t` WRITES BACK is the layer of the whole arrays, read through the point's block of rows. -/
theorem layer2_flushed
    (hpay : ∀ (cnt : Vec Ideal S5000x1 .f32) (msg : Vec Ideal S5000x128 .f32) (root : Vec Ideal S5000x128 .bf16) (wl wr : Vec Ideal S128x128 .f32)
      (bl : Vec Ideal S128 .f32) (r : Fin 5000) (k : Fin 128),
      k1_pay1 (F := Ideal) cnt msg root wl wr bl (ix2 r k) = Cert.Spec.layer2 (n := 5000) msg cnt root wl bl wr (ix2 r k))
    (c : Dev nD) (t : Fin cfg1.N) :
    (dat1 V c).flushed 6 t = ((cfg1.win 6).blk t).view.read (Elt Ideal)
      (Cert.Spec.layer2 (n := 100000) (V c main_v39) (V c main_v8) (V c main_v28) (V c main_v11) (V c main_arg7) (V c main_v12)) := by
  show (cfg1.win 6).cut (grid1.coords t) ((dat1 V c).after 6 t) = _
  rw [after1_6]
  unfold out1_6
  rw [View.canon_unit_zero origin2]
  simp only [View.ld_unit_zero (S := S5000x128) origin2, View.ld_unit_zero (S := S5000x1) origin2,
    View.ld_unit_zero (S := S128x128) origin2, View.ld_unit_zero (S := S128) origin1]
  obtain ⟨e00, e01, e10, e11, e20, e21, e30, e31, e40, e50, e51, e61, e6b⟩ := layer2_index_maps t
  -- the weights' and the bias's blocks are the whole arrays
  have hw3 : iblk1 V c 3 t = V c main_v11 := by
    funext y
    show V c main_v11 (((cfg1.win 3).blk t).view.emb y) = V c main_v11 y
    refine congrArg (V c main_v11) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have hw4 : iblk1 V c 4 t = V c main_arg7 := by
    funext y
    show V c main_arg7 (((cfg1.win 4).blk t).view.emb y) = V c main_arg7 y
    refine congrArg (V c main_arg7) (funext fun a => Fin.ext ?_)
    match a with
    | ⟨0, _⟩ => show win1_4.index t (0 : Fin 1) * 128 + 1 * (y 0).val = (y 0).val; omega
  have hw5 : iblk1 V c 5 t = V c main_v12 := by
    funext y
    show V c main_v12 (((cfg1.win 5).blk t).view.emb y) = V c main_v12 y
    refine congrArg (V c main_v12) (funext fun a => Fin.ext ?_)
    match a with
    | ⟨0, _⟩ => show win1_5.index t (0 : Fin 2) * 128 + 1 * (y 0).val = (y 0).val; omega
    | ⟨1, _⟩ => show win1_5.index t (1 : Fin 2) * 128 + 1 * (y 1).val = (y 1).val; omega
  funext j
  obtain ⟨r, cc, rfl⟩ : ∃ (r : Fin 5000) (cc : Fin 128), j = ix2 r cc := ⟨j 0, j 1, eq_ix2 j⟩
  refine (hpay (iblk1 V c 1 t) (iblk1 V c 0 t) (iblk1 V c 2 t) (iblk1 V c 3 t) (iblk1 V c 5 t) (iblk1 V c 4 t) r cc).trans ?_
  rw [hw3, hw4, hw5]
  have hcol : (((cfg1.win 6).blk t).view.emb (ix2 r cc)) 1 = cc :=
    Fin.ext (by show win1_6.index t (1 : Fin 2) * 128 + 1 * cc.val = cc.val; omega)
  show Cert.Spec.sage (n := 5000) (iblk1 V c 0 t) (iblk1 V c 1 t) (iblk1 V c 2 t) (V c main_v11) (V c main_arg7) (V c main_v12) r cc
    = Cert.Spec.sage (n := 100000) (V c main_v39) (V c main_v8) (V c main_v28) (V c main_v11) (V c main_arg7) (V c main_v12)
        ((((cfg1.win 6).blk t).view.emb (ix2 r cc)) 0) ((((cfg1.win 6).blk t).view.emb (ix2 r cc)) 1)
  rw [hcol]
  refine Cert.Spec.sage_congr_row _ _ _ _ _ _ _ _ _ r _ cc (fun k => ?_) ?_ (fun k => ?_)
  · show V c main_v39 (((cfg1.win 0).blk t).view.emb (ix2 r k)) = V c main_v39 (ix2 ((((cfg1.win 6).blk t).view.emb (ix2 r cc)) 0) k)
    refine congrArg (V c main_v39) (funext fun a => Fin.ext ?_)
    match a with
    | ⟨0, _⟩ => show win1_0.index t (0 : Fin 2) * 5000 + 1 * r.val = win1_6.index t (0 : Fin 2) * 5000 + 1 * r.val; omega
    | ⟨1, _⟩ => show win1_0.index t (1 : Fin 2) * 128 + 1 * k.val = k.val; omega
  · show V c main_v8 (((cfg1.win 1).blk t).view.emb (ix2 r (0 : Fin 1))) = V c main_v8 (ix2 ((((cfg1.win 6).blk t).view.emb (ix2 r cc)) 0) (0 : Fin 1))
    refine congrArg (V c main_v8) (funext fun a => Fin.ext ?_)
    match a with
    | ⟨0, _⟩ => show win1_1.index t (0 : Fin 2) * 5000 + 1 * r.val = win1_6.index t (0 : Fin 2) * 5000 + 1 * r.val; omega
    | ⟨1, _⟩ => show win1_1.index t (1 : Fin 2) * 1 + 1 * 0 = 0; omega
  · show V c main_v28 (((cfg1.win 2).blk t).view.emb (ix2 r k)) = V c main_v28 (ix2 ((((cfg1.win 6).blk t).view.emb (ix2 r cc)) 0) k)
    refine congrArg (V c main_v28) (funext fun a => Fin.ext ?_)
    match a with
    | ⟨0, _⟩ => show win1_2.index t (0 : Fin 2) * 5000 + 1 * r.val = win1_6.index t (0 : Fin 2) * 5000 + 1 * r.val; omega
    | ⟨1, _⟩ => show win1_2.index t (1 : Fin 2) * 128 + 1 * k.val = k.val; omega

/-- An index of the result is in point `t`'s block iff each coordinate is in the block's range on its axis. -/
theorem layer2_mem_block (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v40).slice (win1_6.rect t)).set ↔ _
  rw [View.set_slice_whole, Rect.mem_set_unit]
  exact Iff.rfl

/-- Every index of the result is in some point's block: row `r` is in row block `r / 5000`. -/
theorem layer2_cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := layer2_blocks_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [layer2_mem_block]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE RESULT ARRAY after the grid: the second layer of the arrays the grid found. -/
theorem layer2_array
    (hpay : ∀ (cnt : Vec Ideal S5000x1 .f32) (msg : Vec Ideal S5000x128 .f32) (root : Vec Ideal S5000x128 .bf16) (wl wr : Vec Ideal S128x128 .f32)
      (bl : Vec Ideal S128 .f32) (r : Fin 5000) (k : Fin 128),
      k1_pay1 (F := Ideal) cnt msg root wl wr bl (ix2 r k) = Cert.Spec.layer2 (n := 5000) msg cnt root wl bl wr (ix2 r k))
    (c : Dev nD) :
    (dat1 V c).arrAt 6 cfg1.N
      = Cert.Spec.layer2 (n := 100000) (V c main_v39) (V c main_v8) (V c main_v28) (V c main_v11) (V c main_arg7) (V c main_v12) :=
  (dat1 V c).arrAt_eq_of_cover 6 _ (fun t _ => layer2_flushed V hpay c t) layer2_cover

end Cert.KernelIdeal.Net

end
-- ==== Proof.KDecoder.lean ====
/-
  The decoder's grid of blocks writes the decoder of the whole arrays.

  The grid has a hundred points; point t reads rows 5000 t … 5000 t + 4999 of the two gathered feature arrays and the
  whole of the three weight matrices and the three biases, and writes the same rows of the one-column result.  A pair's
  score depends only on the same row of the two feature arrays, so the block a point writes is the decoder of the
  whole arrays restricted to that point's rows; the hundred blocks of rows tile the result, so the result array ends
  holding the decoder of the arrays the grid found.
-/
import proofs.«116149_j64888365907988_2_alg».proof.Proof.Gen.KernelIdeal.Frame
import proofs.«116149_j64888365907988_2_alg».proof.Proof.Spec
import proofs.«116149_j64888365907988_2_alg».proof.Proof.KLayer1
import Idealize.ShloMosaic.Lib.Pipeline.Value
import Idealize.ShloMosaic.Lib.ValueIdx

set_option maxRecDepth 16384

noncomputable section

namespace Cert.KernelIdeal.Net

open Cert.KernelIdeal Cert.KernelIdeal.Gen
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

/-- The block index maps over the hundred points: the two feature windows move with the result's window along the
    rows and sit at column block zero; the weights and the biases sit at block zero; the result's row block is below a
    hundred. -/
theorem decoder_index_maps : ∀ t : Fin cfg2.N,
    win2_0.index t (0 : Fin 2) = win2_8.index t (0 : Fin 2) ∧ win2_0.index t (1 : Fin 2) = 0
    ∧ win2_1.index t (0 : Fin 2) = win2_8.index t (0 : Fin 2) ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (1 : Fin 2) = 0 ∧ win2_8.index t (0 : Fin 2) ≤ 99 :=
  (by decide +kernel : ∀ t : Fin grid2.N, _)

/-- Every one of the hundred row blocks is some point's. -/
theorem decoder_blocks_onto : ∀ q : Fin 100, ∃ t : Fin cfg2.N, win2_8.index t = ![q.val, 0] :=
  (by decide +kernel : ∀ q : Fin 100, ∃ t : Fin grid2.N, win2_8.index t = ![q.val, 0])

set_option maxHeartbeats 4000000 in
/-- WHAT POINT `t` WRITES BACK is the decoder of the whole arrays, read through the point's block of rows. -/
theorem decoder_flushed
    (hpay : ∀ (z0 z1 : Vec Ideal S5000x128 .bf16) (w1 : Vec Ideal S128x128 .f32) (b1 : Vec Ideal S128 .f32)
      (w2 : Vec Ideal S128x64 .f32) (b2 : Vec Ideal S64 .f32) (w3 : Vec Ideal S64x1 .f32) (b3 : Vec Ideal S1 .f32)
      (r : Fin 5000) (u : Fin 1),
      k2_pay1 (F := Ideal) z0 z1 w1 b1 w2 b2 w3 b3 (ix2 r u) = Cert.Spec.decoder (n := 5000) z0 z1 w1 b1 w2 b2 w3 b3 (ix2 r u))
    (c : Dev nD) (t : Fin cfg2.N) :
    (dat2 V c).flushed 8 t = ((cfg2.win 8).blk t).view.read (Elt Ideal)
      (Cert.Spec.decoder (n := 500000) (V c main_v51) (V c main_v58) (V c main_v13) (V c main_arg10) (V c main_v14) (V c main_arg12) (V c main_v15) (V c main_arg14)) := by
  show (cfg2.win 8).cut (grid2.coords t) ((dat2 V c).after 8 t) = _
  rw [after2_8]
  unfold out2_8
  rw [View.canon_unit_zero origin2]
  simp only [View.ld_unit_zero (S := S5000x128) origin2, View.ld_unit_zero (S := S128x128) origin2,
    View.ld_unit_zero (S := S128) origin1, View.ld_unit_zero (S := S128x64) origin2, View.ld_unit_zero (S := S64) origin1,
    View.ld_unit_zero (S := S64x1) origin2, View.ld_unit_zero (S := S1) origin1]
  obtain ⟨e00, e01, e10, e11, e20, e21, e30, e40, e41, e50, e60, e61, e70, e81, e8b⟩ := decoder_index_maps t
  -- the weights' and the biases' blocks are the whole arrays
  have hw2 : iblk2 V c 2 t = V c main_v13 := by
    funext y
    show V c main_v13 (((cfg2.win 2).blk t).view.emb y) = V c main_v13 y
    refine congrArg (V c main_v13) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  have hw3 : iblk2 V c 3 t = V c main_arg10 := by
    funext y
    show V c main_arg10 (((cfg2.win 3).blk t).view.emb y) = V c main_arg10 y
    refine congrArg (V c main_arg10) (funext fun a => Fin.ext ?_)
    match a with
    | ⟨0, _⟩ => show win2_3.index t (0 : Fin 1) * 128 + 1 * (y 0).val = (y 0).val; omega
  have hw4 : iblk2 V c 4 t = V c main_v14 := by
    funext y
    show V c main_v14 (((cfg2.win 4).blk t).view.emb y) = V c main_v14 y
    refine congrArg (V c main_v14) (funext fun a => Fin.ext ?_)
    match a with
    | ⟨0, _⟩ => show win2_4.index t (0 : Fin 2) * 128 + 1 * (y 0).val = (y 0).val; omega
    | ⟨1, _⟩ => show win2_4.index t (1 : Fin 2) * 64 + 1 * (y 1).val = (y 1).val; omega
  have hw5 : iblk2 V c 5 t = V c main_arg12 := by
    funext y
    show V c main_arg12 (((cfg2.win 5).blk t).view.emb y) = V c main_arg12 y
    refine congrArg (V c main_arg12) (funext fun a => Fin.ext ?_)
    match a with
    | ⟨0, _⟩ => show win2_5.index t (0 : Fin 1) * 64 + 1 * (y 0).val = (y 0).val; omega
  have hw6 : iblk2 V c 6 t = V c main_v15 := by
    funext y
    show V c main_v15 (((cfg2.win 6).blk t).view.emb y) = V c main_v15 y
    refine congrArg (V c main_v15) (funext fun a => Fin.ext ?_)
    match a with
    | ⟨0, _⟩ => show win2_6.index t (0 : Fin 2) * 64 + 1 * (y 0).val = (y 0).val; omega
    | ⟨1, _⟩ => show win2_6.index t (1 : Fin 2) * 1 + 1 * (y 1).val = (y 1).val; omega
  have hw7 : iblk2 V c 7 t = V c main_arg14 := by
    funext y
    show V c main_arg14 (((cfg2.win 7).blk t).view.emb y) = V c main_arg14 y
    refine congrArg (V c main_arg14) (funext fun a => Fin.ext ?_)
    match a with
    | ⟨0, _⟩ => show win2_7.index t (0 : Fin 1) * 1 + 1 * (y 0).val = (y 0).val; omega
  funext j
  obtain ⟨r, u, rfl⟩ : ∃ (r : Fin 5000) (u : Fin 1), j = ix2 r u := ⟨j 0, j 1, eq_ix2 j⟩
  refine (hpay (iblk2 V c 0 t) (iblk2 V c 1 t) (iblk2 V c 2 t) (iblk2 V c 3 t) (iblk2 V c 4 t) (iblk2 V c 5 t) (iblk2 V c 6 t) (iblk2 V c 7 t) r u).trans ?_
  rw [hw2, hw3, hw4, hw5, hw6, hw7]
  have hcol : (((cfg2.win 8).blk t).view.emb (ix2 r u)) 1 = u :=
    Fin.ext (by show win2_8.index t (1 : Fin 2) * 1 + 1 * u.val = u.val; omega)
  show Cert.Spec.score (n := 5000) (iblk2 V c 0 t) (iblk2 V c 1 t) (V c main_v13) (V c main_arg10) (V c main_v14) (V c main_arg12) (V c main_v15) (V c main_arg14) r u
    = Cert.Spec.score (n := 500000) (V c main_v51) (V c main_v58) (V c main_v13) (V c main_arg10) (V c main_v14) (V c main_arg12) (V c main_v15) (V c main_arg14)
        ((((cfg2.win 8).blk t).view.emb (ix2 r u)) 0) ((((cfg2.win 8).blk t).view.emb (ix2 r u)) 1)
  rw [hcol]
  refine Cert.Spec.score_congr_row _ _ _ _ _ _ _ _ _ _ r _ u (fun k => ?_) (fun k => ?_)
  · show V c main_v51 (((cfg2.win 0).blk t).view.emb (ix2 r k)) = V c main_v51 (ix2 ((((cfg2.win 8).blk t).view.emb (ix2 r u)) 0) k)
    refine congrArg (V c main_v51) (funext fun a => Fin.ext ?_)
    match a with
    | ⟨0, _⟩ => show win2_0.index t (0 : Fin 2) * 5000 + 1 * r.val = win2_8.index t (0 : Fin 2) * 5000 + 1 * r.val; omega
    | ⟨1, _⟩ => show win2_0.index t (1 : Fin 2) * 128 + 1 * k.val = k.val; omega
  · show V c main_v58 (((cfg2.win 1).blk t).view.emb (ix2 r k)) = V c main_v58 (ix2 ((((cfg2.win 8).blk t).view.emb (ix2 r u)) 0) k)
    refine congrArg (V c main_v58) (funext fun a => Fin.ext ?_)
    match a with
    | ⟨0, _⟩ => show win2_1.index t (0 : Fin 2) * 5000 + 1 * r.val = win2_8.index t (0 : Fin 2) * 5000 + 1 * r.val; omega
    | ⟨1, _⟩ => show win2_1.index t (1 : Fin 2) * 128 + 1 * k.val = k.val; omega

/-- An index of the result is in point `t`'s block iff each coordinate is in the block's range on its axis. -/
theorem decoder_mem_block (t : Fin cfg2.N) (i : S500000x1.Idx) :
    i ∈ ((cfg2.win 8).blk t).view.set ↔ ∀ a : Fin 2, win2_8.index t a * S5000x1.size a ≤ (i a).val
      ∧ (i a).val < win2_8.index t a * S5000x1.size a + S5000x1.size a := by
  show i ∈ ((View.whole main_v59).slice (win2_8.rect t)).set ↔ _
  rw [View.set_slice_whole, Rect.mem_set_unit]
  exact Iff.rfl

/-- Every index of the result is in some point's block: row `r` is in row block `r / 5000`. -/
theorem decoder_cover (i : S500000x1.Idx) :
    ∃ t : Fin cfg2.N, (cfg2.win 8).flush t = true ∧ i ∈ ((cfg2.win 8).blk t).view.set := by
  have hi0 : (i 0).val < 500000 := (i 0).isLt
  have hi1 : (i 1).val < 1 := (i 1).isLt
  obtain ⟨t, ht⟩ := decoder_blocks_onto ⟨(i 0).val / 5000, by omega⟩
  have q0 : win2_8.index t (0 : Fin 2) = (i 0).val / 5000 := congrFun ht 0
  have q1 : win2_8.index t (1 : Fin 2) = 0 := congrFun ht 1
  refine ⟨t, flush2_8 t, ?_⟩
  rw [decoder_mem_block]
  intro a
  match a with
  | ⟨0, _⟩ => show win2_8.index t (0 : Fin 2) * 5000 ≤ (i 0).val ∧ (i 0).val < win2_8.index t (0 : Fin 2) * 5000 + 5000; omega
  | ⟨1, _⟩ => show win2_8.index t (1 : Fin 2) * 1 ≤ (i 1).val ∧ (i 1).val < win2_8.index t (1 : Fin 2) * 1 + 1; omega

/-- THE RESULT ARRAY after the grid: the decoder of the arrays the grid found. -/
theorem decoder_array
    (hpay : ∀ (z0 z1 : Vec Ideal S5000x128 .bf16) (w1 : Vec Ideal S128x128 .f32) (b1 : Vec Ideal S128 .f32)
      (w2 : Vec Ideal S128x64 .f32) (b2 : Vec Ideal S64 .f32) (w3 : Vec Ideal S64x1 .f32) (b3 : Vec Ideal S1 .f32)
      (r : Fin 5000) (u : Fin 1),
      k2_pay1 (F := Ideal) z0 z1 w1 b1 w2 b2 w3 b3 (ix2 r u) = Cert.Spec.decoder (n := 5000) z0 z1 w1 b1 w2 b2 w3 b3 (ix2 r u))
    (c : Dev nD) :
    (dat2 V c).arrAt 8 cfg2.N
      = Cert.Spec.decoder (n := 500000) (V c main_v51) (V c main_v58) (V c main_v13) (V c main_arg10) (V c main_v14) (V c main_arg12) (V c main_v15) (V c main_arg14) :=
  (dat2 V c).arrAt_eq_of_cover 8 _ (fun t _ => decoder_flushed V hpay c t) decoder_cover

end Cert.KernelIdeal.Net

end
-- ==== Proof.KBounds.lean ====
/-
  The contents of the buffers the three grids read, and of the returned buffer, as functions of the argument arrays.

  The run's buffer contents at each boundary are a fold from the launch memory.  Read at one buffer, a stretch of host
  operations gives the operations' term of the buffers before it, and leaves a buffer it does not write as it was; a
  grid leaves a buffer that is not one of its arrays as it was, leaves an input array as it was, and leaves its output
  array at the layer of the arrays it found (the three grids' theorems).  Walking the fold back from the returned
  buffer: it is the reshape of the decoder's result; the decoder read two gathers of the second layer's result and the
  transposed decoder weights; the second layer read the neighbour sums of the first layer's result, the neighbour
  counts, the first layer's result and its transposed weights; the first layer read the neighbour sums of the node
  features, the neighbour counts, the node features and its transposed weights.
-/
import proofs.«116149_j64888365907988_2_alg».proof.Proof.Gen.KernelIdeal.Frame
import proofs.«116149_j64888365907988_2_alg».proof.Proof.KHost
import proofs.«116149_j64888365907988_2_alg».proof.Proof.KLayer1
import proofs.«116149_j64888365907988_2_alg».proof.Proof.KLayer2
import proofs.«116149_j64888365907988_2_alg».proof.Proof.KDecoder
import Idealize.ShloMosaic.Lib.StableHlo.Run

set_option maxRecDepth 16384

noncomputable section

namespace Cert.KernelIdeal.Net

open Cert.KernelIdeal Cert.KernelIdeal.Facts₀ Cert.KernelIdeal.Facts Cert.KernelIdeal.Gen
open Idealize.ShloMosaic Idealize.ShloMosaic.ValueIdx Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## Before the first grid: every buffer the grids read, as a function of the arguments -/

theorem at1_v1 (c : Dev nD) : V1 m ρ c main_v1 = (edgeSrc (m ((c : Thread nD τ).loc main_arg1))) := by
  show StableHlo.after hostOps0 (W0 m ρ c) (Proc.devRef .tc main_v1) = _
  after_results_simp <;> rfl
theorem at1_v3 (c : Dev nD) : V1 m ρ c main_v3 = (edgeDst (m ((c : Thread nD τ).loc main_arg1))) := by
  show StableHlo.after hostOps0 (W0 m ρ c) (Proc.devRef .tc main_v3) = _
  after_results_simp <;> rfl
theorem at1_v27 (c : Dev nD) : V1 m ρ c main_v27 = (nbrSum (truncf (F := Ideal) (s := S100000x128) (φ := .f32) .bf16 (m ((c : Thread nD τ).loc main_arg0)) Facts₀.bitsLt_bf16_f32) (edgeSrc (m ((c : Thread nD τ).loc main_arg1))) (edgeDst (m ((c : Thread nD τ).loc main_arg1)))) := by
  show StableHlo.after hostOps0 (W0 m ρ c) (Proc.devRef .tc main_v27) = _
  after_results_simp <;> rfl
theorem at1_v8 (c : Dev nD) : V1 m ρ c main_v8 = (nbrCount (edgeDst (m ((c : Thread nD τ).loc main_arg1)))) := by
  show StableHlo.after hostOps0 (W0 m ρ c) (Proc.devRef .tc main_v8) = _
  after_results_simp <;> rfl
theorem at1_arg0 (c : Dev nD) : V1 m ρ c main_arg0 = (m ((c : Thread nD τ).loc main_arg0)) := by
  show StableHlo.after hostOps0 (W0 m ρ c) (Proc.devRef .tc main_arg0) = _
  after_results_simp <;> rfl
theorem at1_v9 (c : Dev nD) : V1 m ρ c main_v9 = (tr128 (m ((c : Thread nD τ).loc main_arg3))) := by
  show StableHlo.after hostOps0 (W0 m ρ c) (Proc.devRef .tc main_v9) = _
  after_results_simp <;> rfl
theorem at1_arg4 (c : Dev nD) : V1 m ρ c main_arg4 = (m ((c : Thread nD τ).loc main_arg4)) := by
  show StableHlo.after hostOps0 (W0 m ρ c) (Proc.devRef .tc main_arg4) = _
  after_results_simp <;> rfl
theorem at1_v10 (c : Dev nD) : V1 m ρ c main_v10 = (tr128 (m ((c : Thread nD τ).loc main_arg5))) := by
  show StableHlo.after hostOps0 (W0 m ρ c) (Proc.devRef .tc main_v10) = _
  after_results_simp <;> rfl
theorem at1_v11 (c : Dev nD) : V1 m ρ c main_v11 = (tr128 (m ((c : Thread nD τ).loc main_arg6))) := by
  show StableHlo.after hostOps0 (W0 m ρ c) (Proc.devRef .tc main_v11) = _
  after_results_simp <;> rfl
theorem at1_arg7 (c : Dev nD) : V1 m ρ c main_arg7 = (m ((c : Thread nD τ).loc main_arg7)) := by
  show StableHlo.after hostOps0 (W0 m ρ c) (Proc.devRef .tc main_arg7) = _
  after_results_simp <;> rfl
theorem at1_v12 (c : Dev nD) : V1 m ρ c main_v12 = (tr128 (m ((c : Thread nD τ).loc main_arg8))) := by
  show StableHlo.after hostOps0 (W0 m ρ c) (Proc.devRef .tc main_v12) = _
  after_results_simp <;> rfl
theorem at1_arg2 (c : Dev nD) : V1 m ρ c main_arg2 = (m ((c : Thread nD τ).loc main_arg2)) := by
  show StableHlo.after hostOps0 (W0 m ρ c) (Proc.devRef .tc main_arg2) = _
  after_results_simp <;> rfl
theorem at1_v13 (c : Dev nD) : V1 m ρ c main_v13 = (tr128 (m ((c : Thread nD τ).loc main_arg9))) := by
  show StableHlo.after hostOps0 (W0 m ρ c) (Proc.devRef .tc main_v13) = _
  after_results_simp <;> rfl
theorem at1_arg10 (c : Dev nD) : V1 m ρ c main_arg10 = (m ((c : Thread nD τ).loc main_arg10)) := by
  show StableHlo.after hostOps0 (W0 m ρ c) (Proc.devRef .tc main_arg10) = _
  after_results_simp <;> rfl
theorem at1_v14 (c : Dev nD) : V1 m ρ c main_v14 = (tr64 (m ((c : Thread nD τ).loc main_arg11))) := by
  show StableHlo.after hostOps0 (W0 m ρ c) (Proc.devRef .tc main_v14) = _
  after_results_simp <;> rfl
theorem at1_arg12 (c : Dev nD) : V1 m ρ c main_arg12 = (m ((c : Thread nD τ).loc main_arg12)) := by
  show StableHlo.after hostOps0 (W0 m ρ c) (Proc.devRef .tc main_arg12) = _
  after_results_simp <;> rfl
theorem at1_v15 (c : Dev nD) : V1 m ρ c main_v15 = (tr1 (m ((c : Thread nD τ).loc main_arg13))) := by
  show StableHlo.after hostOps0 (W0 m ρ c) (Proc.devRef .tc main_v15) = _
  after_results_simp <;> rfl
theorem at1_arg14 (c : Dev nD) : V1 m ρ c main_arg14 = (m ((c : Thread nD τ).loc main_arg14)) := by
  show StableHlo.after hostOps0 (W0 m ρ c) (Proc.devRef .tc main_arg14) = _
  after_results_simp <;> rfl

/-! ## Across the first grid -/

theorem at2_v1 (c : Dev nD) : V2 m ρ c main_v1 = (edgeSrc (m ((c : Thread nD τ).loc main_arg1))) :=
  (W2_of_ne m ρ c main_v1 (by decide)).trans (at1_v1 m ρ c)
theorem at2_v3 (c : Dev nD) : V2 m ρ c main_v3 = (edgeDst (m ((c : Thread nD τ).loc main_arg1))) :=
  (W2_of_ne m ρ c main_v3 (by decide)).trans (at1_v3 m ρ c)
theorem at2_v11 (c : Dev nD) : V2 m ρ c main_v11 = (tr128 (m ((c : Thread nD τ).loc main_arg6))) :=
  (W2_of_ne m ρ c main_v11 (by decide)).trans (at1_v11 m ρ c)
theorem at2_arg7 (c : Dev nD) : V2 m ρ c main_arg7 = (m ((c : Thread nD τ).loc main_arg7)) :=
  (W2_of_ne m ρ c main_arg7 (by decide)).trans (at1_arg7 m ρ c)
theorem at2_v12 (c : Dev nD) : V2 m ρ c main_v12 = (tr128 (m ((c : Thread nD τ).loc main_arg8))) :=
  (W2_of_ne m ρ c main_v12 (by decide)).trans (at1_v12 m ρ c)
theorem at2_arg2 (c : Dev nD) : V2 m ρ c main_arg2 = (m ((c : Thread nD τ).loc main_arg2)) :=
  (W2_of_ne m ρ c main_arg2 (by decide)).trans (at1_arg2 m ρ c)
theorem at2_v13 (c : Dev nD) : V2 m ρ c main_v13 = (tr128 (m ((c : Thread nD τ).loc main_arg9))) :=
  (W2_of_ne m ρ c main_v13 (by decide)).trans (at1_v13 m ρ c)
theorem at2_arg10 (c : Dev nD) : V2 m ρ c main_arg10 = (m ((c : Thread nD τ).loc main_arg10)) :=
  (W2_of_ne m ρ c main_arg10 (by decide)).trans (at1_arg10 m ρ c)
theorem at2_v14 (c : Dev nD) : V2 m ρ c main_v14 = (tr64 (m ((c : Thread nD τ).loc main_arg11))) :=
  (W2_of_ne m ρ c main_v14 (by decide)).trans (at1_v14 m ρ c)
theorem at2_arg12 (c : Dev nD) : V2 m ρ c main_arg12 = (m ((c : Thread nD τ).loc main_arg12)) :=
  (W2_of_ne m ρ c main_arg12 (by decide)).trans (at1_arg12 m ρ c)
theorem at2_v15 (c : Dev nD) : V2 m ρ c main_v15 = (tr1 (m ((c : Thread nD τ).loc main_arg13))) :=
  (W2_of_ne m ρ c main_v15 (by decide)).trans (at1_v15 m ρ c)
theorem at2_arg14 (c : Dev nD) : V2 m ρ c main_arg14 = (m ((c : Thread nD τ).loc main_arg14)) :=
  (W2_of_ne m ρ c main_arg14 (by decide)).trans (at1_arg14 m ρ c)
theorem at2_v8 (c : Dev nD) : V2 m ρ c main_v8 = (nbrCount (edgeDst (m ((c : Thread nD τ).loc main_arg1)))) :=
  ((W2_arr m ρ c 1).trans (((dat0 (V1 m ρ) c).arrAt_in 1 rfl _).trans (A_eq0 (V1 m ρ) c 1))).trans (at1_v8 m ρ c)

/-- The first grid's result array: the first layer of the arguments. -/
theorem at2_v28 (hp1 : ∀ (cnt : Vec Ideal S5000x1 .f32) (msg root : Vec Ideal S5000x128 .f32) (wl wr : Vec Ideal S128x128 .f32)
      (bl : Vec Ideal S128 .f32) (r : Fin 5000) (k : Fin 128),
      k0_pay1 (F := Ideal) cnt msg root wl wr bl (ix2 r k) = Cert.Spec.layer1 (n := 5000) msg cnt root wl bl wr (ix2 r k)) (c : Dev nD) :
    V2 m ρ c main_v28 = (netLayer1 (m ((c : Thread nD τ).loc main_arg0)) (m ((c : Thread nD τ).loc main_arg1)) (m ((c : Thread nD τ).loc main_arg3)) (m ((c : Thread nD τ).loc main_arg4)) (m ((c : Thread nD τ).loc main_arg5))) := by
  refine (W2_arr m ρ c 6).trans ((layer1_array (V1 m ρ) hp1 c).trans ?_)
  rw [at1_v27, at1_v8, at1_arg0, at1_v9, at1_arg4, at1_v10]
  rfl

/-! ## Before the second grid -/

theorem at3_v8 (c : Dev nD) : V3 m ρ c main_v8 = (nbrCount (edgeDst (m ((c : Thread nD τ).loc main_arg1)))) := by
  refine Eq.trans ?_ (at2_v8 m ρ c)
  show StableHlo.after hostOps1 (W2 m ρ c) (Proc.devRef .tc main_v8) = _
  after_results_simp <;> rfl
theorem at3_v11 (c : Dev nD) : V3 m ρ c main_v11 = (tr128 (m ((c : Thread nD τ).loc main_arg6))) := by
  refine Eq.trans ?_ (at2_v11 m ρ c)
  show StableHlo.after hostOps1 (W2 m ρ c) (Proc.devRef .tc main_v11) = _
  after_results_simp <;> rfl
theorem at3_arg7 (c : Dev nD) : V3 m ρ c main_arg7 = (m ((c : Thread nD τ).loc main_arg7)) := by
  refine Eq.trans ?_ (at2_arg7 m ρ c)
  show StableHlo.after hostOps1 (W2 m ρ c) (Proc.devRef .tc main_arg7) = _
  after_results_simp <;> rfl
theorem at3_v12 (c : Dev nD) : V3 m ρ c main_v12 = (tr128 (m ((c : Thread nD τ).loc main_arg8))) := by
  refine Eq.trans ?_ (at2_v12 m ρ c)
  show StableHlo.after hostOps1 (W2 m ρ c) (Proc.devRef .tc main_v12) = _
  after_results_simp <;> rfl
theorem at3_arg2 (c : Dev nD) : V3 m ρ c main_arg2 = (m ((c : Thread nD τ).loc main_arg2)) := by
  refine Eq.trans ?_ (at2_arg2 m ρ c)
  show StableHlo.after hostOps1 (W2 m ρ c) (Proc.devRef .tc main_arg2) = _
  after_results_simp <;> rfl
theorem at3_v13 (c : Dev nD) : V3 m ρ c main_v13 = (tr128 (m ((c : Thread nD τ).loc main_arg9))) := by
  refine Eq.trans ?_ (at2_v13 m ρ c)
  show StableHlo.after hostOps1 (W2 m ρ c) (Proc.devRef .tc main_v13) = _
  after_results_simp <;> rfl
theorem at3_arg10 (c : Dev nD) : V3 m ρ c main_arg10 = (m ((c : Thread nD τ).loc main_arg10)) := by
  refine Eq.trans ?_ (at2_arg10 m ρ c)
  show StableHlo.after hostOps1 (W2 m ρ c) (Proc.devRef .tc main_arg10) = _
  after_results_simp <;> rfl
theorem at3_v14 (c : Dev nD) : V3 m ρ c main_v14 = (tr64 (m ((c : Thread nD τ).loc main_arg11))) := by
  refine Eq.trans ?_ (at2_v14 m ρ c)
  show StableHlo.after hostOps1 (W2 m ρ c) (Proc.devRef .tc main_v14) = _
  after_results_simp <;> rfl
theorem at3_arg12 (c : Dev nD) : V3 m ρ c main_arg12 = (m ((c : Thread nD τ).loc main_arg12)) := by
  refine Eq.trans ?_ (at2_arg12 m ρ c)
  show StableHlo.after hostOps1 (W2 m ρ c) (Proc.devRef .tc main_arg12) = _
  after_results_simp <;> rfl
theorem at3_v15 (c : Dev nD) : V3 m ρ c main_v15 = (tr1 (m ((c : Thread nD τ).loc main_arg13))) := by
  refine Eq.trans ?_ (at2_v15 m ρ c)
  show StableHlo.after hostOps1 (W2 m ρ c) (Proc.devRef .tc main_v15) = _
  after_results_simp <;> rfl
theorem at3_arg14 (c : Dev nD) : V3 m ρ c main_arg14 = (m ((c : Thread nD τ).loc main_arg14)) := by
  refine Eq.trans ?_ (at2_arg14 m ρ c)
  show StableHlo.after hostOps1 (W2 m ρ c) (Proc.devRef .tc main_arg14) = _
  after_results_simp <;> rfl
theorem at3_v28 (hp1 : ∀ (cnt : Vec Ideal S5000x1 .f32) (msg root : Vec Ideal S5000x128 .f32) (wl wr : Vec Ideal S128x128 .f32)
      (bl : Vec Ideal S128 .f32) (r : Fin 5000) (k : Fin 128),
      k0_pay1 (F := Ideal) cnt msg root wl wr bl (ix2 r k) = Cert.Spec.layer1 (n := 5000) msg cnt root wl bl wr (ix2 r k)) (c : Dev nD) :
    V3 m ρ c main_v28 = (netLayer1 (m ((c : Thread nD τ).loc main_arg0)) (m ((c : Thread nD τ).loc main_arg1)) (m ((c : Thread nD τ).loc main_arg3)) (m ((c : Thread nD τ).loc main_arg4)) (m ((c : Thread nD τ).loc main_arg5))) := by
  refine Eq.trans ?_ (at2_v28 m ρ hp1 c)
  show StableHlo.after hostOps1 (W2 m ρ c) (Proc.devRef .tc main_v28) = _
  after_results_simp <;> rfl
theorem at3_v39 (hp1 : ∀ (cnt : Vec Ideal S5000x1 .f32) (msg root : Vec Ideal S5000x128 .f32) (wl wr : Vec Ideal S128x128 .f32)
      (bl : Vec Ideal S128 .f32) (r : Fin 5000) (k : Fin 128),
      k0_pay1 (F := Ideal) cnt msg root wl wr bl (ix2 r k) = Cert.Spec.layer1 (n := 5000) msg cnt root wl bl wr (ix2 r k)) (c : Dev nD) :
    V3 m ρ c main_v39 = nbrSum (netLayer1 (m ((c : Thread nD τ).loc main_arg0)) (m ((c : Thread nD τ).loc main_arg1)) (m ((c : Thread nD τ).loc main_arg3)) (m ((c : Thread nD τ).loc main_arg4)) (m ((c : Thread nD τ).loc main_arg5))) (edgeSrc (m ((c : Thread nD τ).loc main_arg1))) (edgeDst (m ((c : Thread nD τ).loc main_arg1))) := by
  have e : V3 m ρ c main_v39 = nbrSum (V2 m ρ c main_v28) (V2 m ρ c main_v1) (V2 m ρ c main_v3) := by
    show StableHlo.after hostOps1 (W2 m ρ c) (Proc.devRef .tc main_v39) = _
    after_results_simp <;> rfl
  rw [e, at2_v28 m ρ hp1 c, at2_v1, at2_v3]

/-! ## Across the second grid -/

theorem at4_arg2 (c : Dev nD) : V4 m ρ c main_arg2 = (m ((c : Thread nD τ).loc main_arg2)) :=
  (W4_of_ne m ρ c main_arg2 (by decide)).trans (at3_arg2 m ρ c)
theorem at4_v13 (c : Dev nD) : V4 m ρ c main_v13 = (tr128 (m ((c : Thread nD τ).loc main_arg9))) :=
  (W4_of_ne m ρ c main_v13 (by decide)).trans (at3_v13 m ρ c)
theorem at4_arg10 (c : Dev nD) : V4 m ρ c main_arg10 = (m ((c : Thread nD τ).loc main_arg10)) :=
  (W4_of_ne m ρ c main_arg10 (by decide)).trans (at3_arg10 m ρ c)
theorem at4_v14 (c : Dev nD) : V4 m ρ c main_v14 = (tr64 (m ((c : Thread nD τ).loc main_arg11))) :=
  (W4_of_ne m ρ c main_v14 (by decide)).trans (at3_v14 m ρ c)
theorem at4_arg12 (c : Dev nD) : V4 m ρ c main_arg12 = (m ((c : Thread nD τ).loc main_arg12)) :=
  (W4_of_ne m ρ c main_arg12 (by decide)).trans (at3_arg12 m ρ c)
theorem at4_v15 (c : Dev nD) : V4 m ρ c main_v15 = (tr1 (m ((c : Thread nD τ).loc main_arg13))) :=
  (W4_of_ne m ρ c main_v15 (by decide)).trans (at3_v15 m ρ c)
theorem at4_arg14 (c : Dev nD) : V4 m ρ c main_arg14 = (m ((c : Thread nD τ).loc main_arg14)) :=
  (W4_of_ne m ρ c main_arg14 (by decide)).trans (at3_arg14 m ρ c)

/-- The second grid's result array: the second layer of the arguments. -/
theorem at4_v40 (hp1 : ∀ (cnt : Vec Ideal S5000x1 .f32) (msg root : Vec Ideal S5000x128 .f32) (wl wr : Vec Ideal S128x128 .f32)
      (bl : Vec Ideal S128 .f32) (r : Fin 5000) (k : Fin 128),
      k0_pay1 (F := Ideal) cnt msg root wl wr bl (ix2 r k) = Cert.Spec.layer1 (n := 5000) msg cnt root wl bl wr (ix2 r k)) (hp2 : ∀ (cnt : Vec Ideal S5000x1 .f32) (msg : Vec Ideal S5000x128 .f32) (root : Vec Ideal S5000x128 .bf16) (wl wr : Vec Ideal S128x128 .f32)
      (bl : Vec Ideal S128 .f32) (r : Fin 5000) (k : Fin 128),
      k1_pay1 (F := Ideal) cnt msg root wl wr bl (ix2 r k) = Cert.Spec.layer2 (n := 5000) msg cnt root wl bl wr (ix2 r k)) (c : Dev nD) :
    V4 m ρ c main_v40 = (netLayer2 (netLayer1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) := by
  refine (W4_arr m ρ c 6).trans ((layer2_array (V3 m ρ) hp2 c).trans ?_)
  rw [at3_v39 m ρ hp1 c, at3_v8, at3_v28 m ρ hp1 c, at3_v11, at3_arg7, at3_v12]
  rfl

/-! ## Before the decoder's grid -/

theorem at5_v13 (c : Dev nD) : V5 m ρ c main_v13 = (tr128 (m ((c : Thread nD τ).loc main_arg9))) := by
  refine Eq.trans ?_ (at4_v13 m ρ c)
  show StableHlo.after hostOps2 (W4 m ρ c) (Proc.devRef .tc main_v13) = _
  after_results_simp <;> rfl
theorem at5_arg10 (c : Dev nD) : V5 m ρ c main_arg10 = (m ((c : Thread nD τ).loc main_arg10)) := by
  refine Eq.trans ?_ (at4_arg10 m ρ c)
  show StableHlo.after hostOps2 (W4 m ρ c) (Proc.devRef .tc main_arg10) = _
  after_results_simp <;> rfl
theorem at5_v14 (c : Dev nD) : V5 m ρ c main_v14 = (tr64 (m ((c : Thread nD τ).loc main_arg11))) := by
  refine Eq.trans ?_ (at4_v14 m ρ c)
  show StableHlo.after hostOps2 (W4 m ρ c) (Proc.devRef .tc main_v14) = _
  after_results_simp <;> rfl
theorem at5_arg12 (c : Dev nD) : V5 m ρ c main_arg12 = (m ((c : Thread nD τ).loc main_arg12)) := by
  refine Eq.trans ?_ (at4_arg12 m ρ c)
  show StableHlo.after hostOps2 (W4 m ρ c) (Proc.devRef .tc main_arg12) = _
  after_results_simp <;> rfl
theorem at5_v15 (c : Dev nD) : V5 m ρ c main_v15 = (tr1 (m ((c : Thread nD τ).loc main_arg13))) := by
  refine Eq.trans ?_ (at4_v15 m ρ c)
  show StableHlo.after hostOps2 (W4 m ρ c) (Proc.devRef .tc main_v15) = _
  after_results_simp <;> rfl
theorem at5_arg14 (c : Dev nD) : V5 m ρ c main_arg14 = (m ((c : Thread nD τ).loc main_arg14)) := by
  refine Eq.trans ?_ (at4_arg14 m ρ c)
  show StableHlo.after hostOps2 (W4 m ρ c) (Proc.devRef .tc main_arg14) = _
  after_results_simp <;> rfl
theorem at5_v51 (hp1 : ∀ (cnt : Vec Ideal S5000x1 .f32) (msg root : Vec Ideal S5000x128 .f32) (wl wr : Vec Ideal S128x128 .f32)
      (bl : Vec Ideal S128 .f32) (r : Fin 5000) (k : Fin 128),
      k0_pay1 (F := Ideal) cnt msg root wl wr bl (ix2 r k) = Cert.Spec.layer1 (n := 5000) msg cnt root wl bl wr (ix2 r k)) (hp2 : ∀ (cnt : Vec Ideal S5000x1 .f32) (msg : Vec Ideal S5000x128 .f32) (root : Vec Ideal S5000x128 .bf16) (wl wr : Vec Ideal S128x128 .f32)
      (bl : Vec Ideal S128 .f32) (r : Fin 5000) (k : Fin 128),
      k1_pay1 (F := Ideal) cnt msg root wl wr bl (ix2 r k) = Cert.Spec.layer2 (n := 5000) msg cnt root wl bl wr (ix2 r k)) (c : Dev nD) :
    V5 m ρ c main_v51 = pickRows (netLayer2 (netLayer1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (pairFst (m ((c : Thread nD τ).loc main_arg2))) := by
  have e : V5 m ρ c main_v51 = pickRows (V4 m ρ c main_v40) (pairFst (V4 m ρ c main_arg2)) := by
    show StableHlo.after hostOps2 (W4 m ρ c) (Proc.devRef .tc main_v51) = _
    after_results_simp <;> rfl
  rw [e, at4_v40 m ρ hp1 hp2 c, at4_arg2]
theorem at5_v58 (hp1 : ∀ (cnt : Vec Ideal S5000x1 .f32) (msg root : Vec Ideal S5000x128 .f32) (wl wr : Vec Ideal S128x128 .f32)
      (bl : Vec Ideal S128 .f32) (r : Fin 5000) (k : Fin 128),
      k0_pay1 (F := Ideal) cnt msg root wl wr bl (ix2 r k) = Cert.Spec.layer1 (n := 5000) msg cnt root wl bl wr (ix2 r k)) (hp2 : ∀ (cnt : Vec Ideal S5000x1 .f32) (msg : Vec Ideal S5000x128 .f32) (root : Vec Ideal S5000x128 .bf16) (wl wr : Vec Ideal S128x128 .f32)
      (bl : Vec Ideal S128 .f32) (r : Fin 5000) (k : Fin 128),
      k1_pay1 (F := Ideal) cnt msg root wl wr bl (ix2 r k) = Cert.Spec.layer2 (n := 5000) msg cnt root wl bl wr (ix2 r k)) (c : Dev nD) :
    V5 m ρ c main_v58 = pickRows (netLayer2 (netLayer1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (pairSnd (m ((c : Thread nD τ).loc main_arg2))) := by
  have e : V5 m ρ c main_v58 = pickRows (V4 m ρ c main_v40) (pairSnd (V4 m ρ c main_arg2)) := by
    show StableHlo.after hostOps2 (W4 m ρ c) (Proc.devRef .tc main_v58) = _
    after_results_simp <;> rfl
  rw [e, at4_v40 m ρ hp1 hp2 c, at4_arg2]

/-! ## The returned buffer -/

/-- THE RETURNED BUFFER at the end of the run: the reshape of the decoder of the second layer of the first layer of
    the arguments. -/
theorem returned (hp1 : ∀ (cnt : Vec Ideal S5000x1 .f32) (msg root : Vec Ideal S5000x128 .f32) (wl wr : Vec Ideal S128x128 .f32)
      (bl : Vec Ideal S128 .f32) (r : Fin 5000) (k : Fin 128),
      k0_pay1 (F := Ideal) cnt msg root wl wr bl (ix2 r k) = Cert.Spec.layer1 (n := 5000) msg cnt root wl bl wr (ix2 r k)) (hp2 : ∀ (cnt : Vec Ideal S5000x1 .f32) (msg : Vec Ideal S5000x128 .f32) (root : Vec Ideal S5000x128 .bf16) (wl wr : Vec Ideal S128x128 .f32)
      (bl : Vec Ideal S128 .f32) (r : Fin 5000) (k : Fin 128),
      k1_pay1 (F := Ideal) cnt msg root wl wr bl (ix2 r k) = Cert.Spec.layer2 (n := 5000) msg cnt root wl bl wr (ix2 r k)) (hp3 : ∀ (z0 z1 : Vec Ideal S5000x128 .bf16) (w1 : Vec Ideal S128x128 .f32) (b1 : Vec Ideal S128 .f32)
      (w2 : Vec Ideal S128x64 .f32) (b2 : Vec Ideal S64 .f32) (w3 : Vec Ideal S64x1 .f32) (b3 : Vec Ideal S1 .f32)
      (r : Fin 5000) (u : Fin 1),
      k2_pay1 (F := Ideal) z0 z1 w1 b1 w2 b2 w3 b3 (ix2 r u) = Cert.Spec.decoder (n := 5000) z0 z1 w1 b1 w2 b2 w3 b3 (ix2 r u)) (c : Dev nD) :
    W7 m ρ c (Proc.devRef .tc main_v60)
      = shapeCast S500000 (netScores (netLayer2 (netLayer1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) Facts₀.shapeCasts_S500000x1_S500000 := by
  have e : W7 m ρ c (Proc.devRef .tc main_v60) = shapeCast S500000 (V6 m ρ c main_v59) Facts₀.shapeCasts_S500000x1_S500000 := by
    show StableHlo.after hostOps3 (W6 m ρ c) (Proc.devRef .tc main_v60) = _
    after_results_simp <;> rfl
  have e6 : V6 m ρ c main_v59 = (netScores (netLayer2 (netLayer1 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) (m ((c : Thread nD τ).loc main_arg6)) (m ((c : Thread nD τ).loc main_arg7)) (m ((c : Thread nD τ).loc main_arg8))) (m ((c : Thread nD τ).loc main_arg2)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
    refine (W6_arr m ρ c 8).trans ((decoder_array (V5 m ρ) hp3 c).trans ?_)
    rw [at5_v51 m ρ hp1 hp2 c, at5_v58 m ρ hp1 hp2 c, at5_v13, at5_arg10, at5_v14, at5_arg12, at5_v15, at5_arg14]
    rfl
  rw [e, e6]

end Cert.KernelIdeal.Net

end
-- ==== Proof.RefLayers.lean ====
/-
  The reference program's two graph layers, read index by index, are the graph layers of the
  specification.

  The neighbour sums (a scatter of a gather) and the neighbour counts (a scatter) depend on the values of
  the edge list; they are carried as they stand.  So are the weight transposes.  Everything between them
  is pointwise or a matrix product: at node `r` and output feature `c` the reference's first layer is

      max ((Σ_k (msg r k / max (cnt r) 1) · wl k c) + bl c + (Σ_k x r k · wr k c)) 0,

  which is the specification's first layer of the neighbour sums `msg`, the counts `cnt` as a column,
  the node features `x`, the two transposed weights and the bias.  The second layer is the same without
  the clamp, on the first layer's result; it recomputes the counts by the very same operation.
-/
import proofs.«116149_j64888365907988_2_alg».proof.Proof.Gen.ReferenceIdeal.Read
import proofs.«116149_j64888365907988_2_alg».proof.Proof.Spec

open scoped BigOperators

noncomputable section

namespace Cert.ReferenceIdeal.Net

open Cert.ReferenceIdeal Cert.ReferenceIdeal.Gen Idealize.ShloMosaic Idealize.ShloMosaic.TcCoe Idealize.SL.Sem
  Idealize.ShloMosaic.StableHlo Idealize.ShloMosaic.ValueIdx

/-! ## The neighbour count as a column -/

/-- The number of neighbours of every node, not yet clamped below at one, as a column. -/
def cntcol (x1 : (⟨S2x1600000, .i32⟩ : BufTy).Contents (Elt Ideal)) : (⟨S100000x1, .f32⟩ : BufTy).Contents (Elt Ideal) :=
  broadcastInDim S100000x1 ![0] bcast_S100000_S100000x1_0 (Read.val_main_v17 (F := Ideal) x1)

/-- The column's entry at node `r` is the count at `r`. -/
theorem cntcol_apply (x1 : (⟨S2x1600000, .i32⟩ : BufTy).Contents (Elt Ideal)) (r : Fin 100000) :
    cntcol x1 (ix2 r (0 : Fin 1)) = Read.val_main_v17 (F := Ideal) x1 (ix1 r) := by
  unfold cntcol
  generalize Read.val_main_v17 (F := Ideal) x1 = y
  exact broadcastInDim_apply _ bcast_S100000_S100000x1_0 y (ix2 r (0 : Fin 1)) (ix1 r) (fun a => match a with
    | ⟨0, _⟩ => by show r.val = if (100000 : Nat) = 1 then 0 else r.val; rw [if_neg (by decide)])

/-! ## The index functions of the generated reading, by coordinates -/

/-- Row `r`, contraction position `k` of a left operand. -/
theorem lidx24 (r : Fin 100000) (c k : Fin 128) : Read.lidx_main_v24 (ix2 r c) k = ix2 r k :=
  funext fun a => Fin.ext (by match a with | ⟨0, _⟩ => rfl | ⟨1, _⟩ => rfl)
/-- Contraction position `k`, column `c` of a right operand. -/
theorem ridx24 (r : Fin 100000) (c k : Fin 128) : Read.ridx_main_v24 (ix2 r c) k = ix2 k c :=
  funext fun a => Fin.ext (by match a with | ⟨0, _⟩ => rfl | ⟨1, _⟩ => rfl)
theorem lidx29 (r : Fin 100000) (c k : Fin 128) : Read.lidx_main_v29 (ix2 r c) k = ix2 r k :=
  funext fun a => Fin.ext (by match a with | ⟨0, _⟩ => rfl | ⟨1, _⟩ => rfl)
theorem ridx29 (r : Fin 100000) (c k : Fin 128) : Read.ridx_main_v29 (ix2 r c) k = ix2 k c :=
  funext fun a => Fin.ext (by match a with | ⟨0, _⟩ => rfl | ⟨1, _⟩ => rfl)
/-- The count broadcast along a row is read at the row's node. -/
theorem idx20_21 (r : Fin 100000) (k : Fin 128) : Read.idx_main_v20 (Read.idx_main_v21 (ix2 r k)) = ix1 r :=
  funext fun a => Fin.ext (by match a with | ⟨0, _⟩ => rfl)
/-- The bias broadcast down a column is read at the column's feature. -/
theorem idx25_26 (r : Fin 100000) (c : Fin 128) : Read.idx_main_v25 (Read.idx_main_v26 (ix2 r c)) = ix1 c :=
  funext fun a => Fin.ext (by match a with | ⟨0, _⟩ => rfl)

/-! ## The first layer, stage by stage, at node `r` and feature `c` -/

/-- The divisor at node `r`: the count clamped below at one, whatever the column. -/
theorem v21_at (x1 : (⟨S2x1600000, .i32⟩ : BufTy).Contents (Elt Ideal)) (r : Fin 100000) (k : Fin 128) :
    Read.val_main_v21 (F := Ideal) x1 (ix2 r k) = max (Read.val_main_v17 (F := Ideal) x1 (ix1 r)) Cert.Spec.one := by
  rw [Read.val_main_v21_apply, Read.val_main_v20_apply, Read.val_main_v19_apply, Read.val_main_v18_apply,
    Read.val_main_cst_3_apply, idx20_21]
  rfl

/-- The mean of the neighbours' feature `k` at node `r`. -/
theorem v22_at (x0 : (⟨S100000x128, .f32⟩ : BufTy).Contents (Elt Ideal)) (x1 : (⟨S2x1600000, .i32⟩ : BufTy).Contents (Elt Ideal)) (r : Fin 100000) (k : Fin 128) :
    Read.val_main_v22 (F := Ideal) x0 x1 (ix2 r k)
      = Ideal.div (Read.val_main_v13 (F := Ideal) x0 x1 (ix2 r k)) (max (Read.val_main_v17 (F := Ideal) x1 (ix1 r)) Cert.Spec.one) := by
  rw [Read.val_main_v22_apply, v21_at]
  rfl

/-- The means through the left weights. -/
theorem v24_at (x0 : (⟨S100000x128, .f32⟩ : BufTy).Contents (Elt Ideal)) (x1 : (⟨S2x1600000, .i32⟩ : BufTy).Contents (Elt Ideal)) (x3 : (⟨S128x128, .f32⟩ : BufTy).Contents (Elt Ideal)) (r : Fin 100000) (c : Fin 128) :
    Read.val_main_v24 (F := Ideal) x0 x1 x3 (ix2 r c)
      = ∑ k : Fin 128, Ideal.div (Read.val_main_v13 (F := Ideal) x0 x1 (ix2 r k))
            (max (Read.val_main_v17 (F := Ideal) x1 (ix1 r)) Cert.Spec.one) * Read.val_main_v23 (F := Ideal) x3 (ix2 k c) := by
  rw [Read.val_main_v24_apply]
  refine Finset.sum_congr rfl fun k _ => ?_
  rw [lidx24, ridx24, v22_at]

/-- The bias, the same down every column. -/
theorem v26_at (x4 : (⟨S128, .f32⟩ : BufTy).Contents (Elt Ideal)) (r : Fin 100000) (c : Fin 128) : Read.val_main_v26 (F := Ideal) x4 (ix2 r c) = x4 (ix1 c) := by
  rw [Read.val_main_v26_apply, Read.val_main_v25_apply, idx25_26]

/-- The node's own features through the right weights. -/
theorem v29_at (x0 : (⟨S100000x128, .f32⟩ : BufTy).Contents (Elt Ideal)) (x5 : (⟨S128x128, .f32⟩ : BufTy).Contents (Elt Ideal)) (r : Fin 100000) (c : Fin 128) :
    Read.val_main_v29 (F := Ideal) x0 x5 (ix2 r c) = ∑ k : Fin 128, x0 (ix2 r k) * Read.val_main_v28 (F := Ideal) x5 (ix2 k c) := by
  rw [Read.val_main_v29_apply]
  refine Finset.sum_congr rfl fun k _ => ?_
  rw [lidx29, ridx29]

/-- The clamp's constant. -/
theorem relu0_at (r : Fin 100000) (c : Fin 128) : Read.val_main_call0_v0 (F := Ideal) (ix2 r c) = Cert.Spec.zero := by
  rw [Read.val_main_call0_v0_apply, Read.val_main_call0_cst_apply]
  rfl

/-- The reference's first layer is the specification's, of the neighbour sums, the count column, the node
    features, the transposed weights and the bias. -/
theorem ref_layer1 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) :
    Read.val_main_v31 (F := Ideal) x0 x1 x3 x4 x5
      = Cert.Spec.layer1 (n := 100000) (Read.val_main_v13 (F := Ideal) x0 x1) (cntcol x1) x0 (Read.val_main_v23 (F := Ideal) x3) x4
          (Read.val_main_v28 (F := Ideal) x5) := by
  funext i
  obtain ⟨r, c, rfl⟩ : ∃ (r : Fin 100000) (c : Fin 128), i = ix2 r c := ⟨i 0, i 1, eq_ix2 i⟩
  rw [Read.val_main_v31_apply, Read.val_main_v30_apply, Read.val_main_v27_apply, v24_at, v26_at, v29_at, relu0_at]
  unfold Cert.Spec.layer1 Cert.Spec.sage
  rw [cntcol_apply]
  rfl

/-! ## The second layer -/

/-- The second layer counts the neighbours again, by the same operation on the same edge list. -/
theorem v45_eq_v17 (x1 : (⟨S2x1600000, .i32⟩ : BufTy).Contents (Elt Ideal)) : Read.val_main_v45 (F := Ideal) x1 = Read.val_main_v17 (F := Ideal) x1 := by
  unfold Read.val_main_v45 Read.val_main_v17 Read.val_main_v43 Read.val_main_v15 Read.val_main_v44 Read.val_main_v16
    Read.val_main_v42 Read.val_main_v14 Read.val_main_cst_8 Read.val_main_cst_2 Read.val_main_cst_7 Read.val_main_cst_1
  rfl

theorem lidx52 (r : Fin 100000) (c k : Fin 128) : Read.lidx_main_v52 (ix2 r c) k = ix2 r k :=
  funext fun a => Fin.ext (by match a with | ⟨0, _⟩ => rfl | ⟨1, _⟩ => rfl)
theorem ridx52 (r : Fin 100000) (c k : Fin 128) : Read.ridx_main_v52 (ix2 r c) k = ix2 k c :=
  funext fun a => Fin.ext (by match a with | ⟨0, _⟩ => rfl | ⟨1, _⟩ => rfl)
theorem lidx57 (r : Fin 100000) (c k : Fin 128) : Read.lidx_main_v57 (ix2 r c) k = ix2 r k :=
  funext fun a => Fin.ext (by match a with | ⟨0, _⟩ => rfl | ⟨1, _⟩ => rfl)
theorem ridx57 (r : Fin 100000) (c k : Fin 128) : Read.ridx_main_v57 (ix2 r c) k = ix2 k c :=
  funext fun a => Fin.ext (by match a with | ⟨0, _⟩ => rfl | ⟨1, _⟩ => rfl)
theorem idx48_49 (r : Fin 100000) (k : Fin 128) : Read.idx_main_v48 (Read.idx_main_v49 (ix2 r k)) = ix1 r :=
  funext fun a => Fin.ext (by match a with | ⟨0, _⟩ => rfl)
theorem idx53_54 (r : Fin 100000) (c : Fin 128) : Read.idx_main_v53 (Read.idx_main_v54 (ix2 r c)) = ix1 c :=
  funext fun a => Fin.ext (by match a with | ⟨0, _⟩ => rfl)

/-- The second layer's divisor at node `r`: the same clamped count. -/
theorem v49_at (x1 : (⟨S2x1600000, .i32⟩ : BufTy).Contents (Elt Ideal)) (r : Fin 100000) (k : Fin 128) :
    Read.val_main_v49 (F := Ideal) x1 (ix2 r k) = max (Read.val_main_v17 (F := Ideal) x1 (ix1 r)) Cert.Spec.one := by
  rw [Read.val_main_v49_apply, Read.val_main_v48_apply, Read.val_main_v47_apply, Read.val_main_v46_apply,
    Read.val_main_cst_9_apply, idx48_49, v45_eq_v17]
  rfl

/-- The mean of the neighbours' hidden feature `k` at node `r`. -/
theorem v50_at (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (r : Fin 100000) (k : Fin 128) :
    Read.val_main_v50 (F := Ideal) x0 x1 x3 x4 x5 (ix2 r k)
      = Ideal.div (Read.val_main_v41 (F := Ideal) x0 x1 x3 x4 x5 (ix2 r k))
          (max (Read.val_main_v17 (F := Ideal) x1 (ix1 r)) Cert.Spec.one) := by
  rw [Read.val_main_v50_apply, v49_at]
  rfl

theorem v52_at (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128x128, .f32⟩ : BufTy).Contents (Elt Ideal)) (r : Fin 100000) (c : Fin 128) :
    Read.val_main_v52 (F := Ideal) x0 x1 x3 x4 x5 x6 (ix2 r c)
      = ∑ k : Fin 128, Ideal.div (Read.val_main_v41 (F := Ideal) x0 x1 x3 x4 x5 (ix2 r k))
            (max (Read.val_main_v17 (F := Ideal) x1 (ix1 r)) Cert.Spec.one) * Read.val_main_v51 (F := Ideal) x6 (ix2 k c) := by
  rw [Read.val_main_v52_apply]
  refine Finset.sum_congr rfl fun k _ => ?_
  rw [lidx52, ridx52, v50_at]

theorem v54_at (x7 : (⟨S128, .f32⟩ : BufTy).Contents (Elt Ideal)) (r : Fin 100000) (c : Fin 128) : Read.val_main_v54 (F := Ideal) x7 (ix2 r c) = x7 (ix1 c) := by
  rw [Read.val_main_v54_apply, Read.val_main_v53_apply, idx53_54]

theorem v57_at (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x8 : (⟨S128x128, .f32⟩ : BufTy).Contents (Elt Ideal)) (r : Fin 100000) (c : Fin 128) :
    Read.val_main_v57 (F := Ideal) x0 x1 x3 x4 x5 x8 (ix2 r c)
      = ∑ k : Fin 128, Read.val_main_v31 (F := Ideal) x0 x1 x3 x4 x5 (ix2 r k) * Read.val_main_v56 (F := Ideal) x8 (ix2 k c) := by
  rw [Read.val_main_v57_apply]
  refine Finset.sum_congr rfl fun k _ => ?_
  rw [lidx57, ridx57]

/-- The reference's second layer is the specification's, of the neighbour sums of the first layer's result,
    the same count column, the first layer's result, the transposed weights and the bias. -/
theorem ref_layer2 (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) :
    Read.val_main_v58 (F := Ideal) x0 x1 x3 x4 x5 x6 x7 x8
      = Cert.Spec.layer2 (n := 100000) (Read.val_main_v41 (F := Ideal) x0 x1 x3 x4 x5) (cntcol x1)
          (Read.val_main_v31 (F := Ideal) x0 x1 x3 x4 x5) (Read.val_main_v51 (F := Ideal) x6) x7 (Read.val_main_v56 (F := Ideal) x8) := by
  funext i
  obtain ⟨r, c, rfl⟩ : ∃ (r : Fin 100000) (c : Fin 128), i = ix2 r c := ⟨i 0, i 1, eq_ix2 i⟩
  rw [Read.val_main_v58_apply, Read.val_main_v55_apply, v52_at, v54_at, v57_at]
  unfold Cert.Spec.layer2 Cert.Spec.sage
  rw [cntcol_apply]
  rfl

end Cert.ReferenceIdeal.Net

end
-- ==== Proof.RefDecoder.lean ====
/-
  The reference program's decoder, read index by index, is the decoder of the specification.

  The two gathered rows of every pair (gathers depend on the values of the pair list) are carried as they
  stand, and so are the weight transposes.  Between them the reference multiplies the two rows feature by
  feature and applies three affine maps with a clamp at zero after the first two: at pair `r`

      h1 r c = max ((Σ_k (z0 r k · z1 r k) · w1 k c) + b1 c) 0
      h2 r c = max ((Σ_k h1 r k · w2 k c) + b2 c) 0
      out r u = (Σ_k h2 r k · w3 k u) + b3 u,

  which are the specification's two hidden rows and its score.
-/
import proofs.«116149_j64888365907988_2_alg».proof.Proof.Gen.ReferenceIdeal.Read
import proofs.«116149_j64888365907988_2_alg».proof.Proof.Spec

open scoped BigOperators

noncomputable section

namespace Cert.ReferenceIdeal.Net

open Cert.ReferenceIdeal Cert.ReferenceIdeal.Gen Idealize.ShloMosaic Idealize.ShloMosaic.TcCoe Idealize.SL.Sem
  Idealize.ShloMosaic.StableHlo Idealize.ShloMosaic.ValueIdx

/-! ## The index functions of the generated reading, by coordinates -/

theorem lidx79 (r : Fin 500000) (c k : Fin 128) : Read.lidx_main_v79 (ix2 r c) k = ix2 r k :=
  funext fun a => Fin.ext (by match a with | ⟨0, _⟩ => rfl | ⟨1, _⟩ => rfl)
theorem ridx79 (r : Fin 500000) (c k : Fin 128) : Read.ridx_main_v79 (ix2 r c) k = ix2 k c :=
  funext fun a => Fin.ext (by match a with | ⟨0, _⟩ => rfl | ⟨1, _⟩ => rfl)
theorem idx80_81 (r : Fin 500000) (c : Fin 128) : Read.idx_main_v80 (Read.idx_main_v81 (ix2 r c)) = ix1 c :=
  funext fun a => Fin.ext (by match a with | ⟨0, _⟩ => rfl)
theorem lidx85 (r : Fin 500000) (c : Fin 64) (k : Fin 128) : Read.lidx_main_v85 (ix2 r c) k = ix2 r k :=
  funext fun a => Fin.ext (by match a with | ⟨0, _⟩ => rfl | ⟨1, _⟩ => rfl)
theorem ridx85 (r : Fin 500000) (c : Fin 64) (k : Fin 128) : Read.ridx_main_v85 (ix2 r c) k = ix2 k c :=
  funext fun a => Fin.ext (by match a with | ⟨0, _⟩ => rfl | ⟨1, _⟩ => rfl)
theorem idx86_87 (r : Fin 500000) (c : Fin 64) : Read.idx_main_v86 (Read.idx_main_v87 (ix2 r c)) = ix1 c :=
  funext fun a => Fin.ext (by match a with | ⟨0, _⟩ => rfl)
theorem lidx91 (r : Fin 500000) (u : Fin 1) (k : Fin 64) : Read.lidx_main_v91 (ix2 r u) k = ix2 r k :=
  funext fun a => Fin.ext (by match a with | ⟨0, _⟩ => rfl | ⟨1, _⟩ => rfl)
theorem ridx91 (r : Fin 500000) (u : Fin 1) (k : Fin 64) : Read.ridx_main_v91 (ix2 r u) k = ix2 k u :=
  funext fun a => Fin.ext (by match a with | ⟨0, _⟩ => rfl | ⟨1, _⟩ => rfl)
/-- The last bias has one entry; the one output column reads it. -/
theorem idx92_93 (r : Fin 500000) (u : Fin 1) : Read.idx_main_v92 (Read.idx_main_v93 (ix2 r u)) = ix1 u :=
  funext fun a => Fin.ext (by match a with | ⟨0, _⟩ => show 0 = u.val; omega)

/-! ## The decoder, stage by stage, at pair `r` -/

/-- The feature-wise product of the pair's two rows. -/
theorem v77_at (x0 : (⟨S100000x128, .f32⟩ : BufTy).Contents (Elt Ideal)) (x1 : (⟨S2x1600000, .i32⟩ : BufTy).Contents (Elt Ideal)) (x2 : (⟨S500000x2, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) (r : Fin 500000) (k : Fin 128) :
    Read.val_main_v77 (F := Ideal) x0 x1 x2 x3 x4 x5 x6 x7 x8 (ix2 r k) = (Read.val_main_v67 (F := Ideal) x0 x1 x2 x3 x4 x5 x6 x7 x8) (ix2 r k) * (Read.val_main_v76 (F := Ideal) x0 x1 x2 x3 x4 x5 x6 x7 x8) (ix2 r k) := by
  rw [Read.val_main_v77_apply]
  rfl

theorem v79_at (x0 : (⟨S100000x128, .f32⟩ : BufTy).Contents (Elt Ideal)) (x1 : (⟨S2x1600000, .i32⟩ : BufTy).Contents (Elt Ideal)) (x2 : (⟨S500000x2, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) (x9 : (⟨S128x128, .f32⟩ : BufTy).Contents (Elt Ideal)) (r : Fin 500000) (c : Fin 128) :
    Read.val_main_v79 (F := Ideal) x0 x1 x2 x3 x4 x5 x6 x7 x8 x9 (ix2 r c)
      = ∑ k : Fin 128, ((Read.val_main_v67 (F := Ideal) x0 x1 x2 x3 x4 x5 x6 x7 x8) (ix2 r k) * (Read.val_main_v76 (F := Ideal) x0 x1 x2 x3 x4 x5 x6 x7 x8) (ix2 r k)) * (Read.val_main_v78 (F := Ideal) x9) (ix2 k c) := by
  rw [Read.val_main_v79_apply]
  refine Finset.sum_congr rfl fun k _ => ?_
  rw [lidx79, ridx79, v77_at]

theorem v81_at (x10 : (⟨S128, .f32⟩ : BufTy).Contents (Elt Ideal)) (r : Fin 500000) (c : Fin 128) : Read.val_main_v81 (F := Ideal) x10 (ix2 r c) = x10 (ix1 c) := by
  rw [Read.val_main_v81_apply, Read.val_main_v80_apply, idx80_81]

theorem relu1_at (r : Fin 500000) (c : Fin 128) : Read.val_main_call1_v0 (F := Ideal) (ix2 r c) = Cert.Spec.zero := by
  rw [Read.val_main_call1_v0_apply, Read.val_main_call1_cst_apply]
  rfl

/-- The first hidden row. -/
theorem v83_at (x0 : (⟨S100000x128, .f32⟩ : BufTy).Contents (Elt Ideal)) (x1 : (⟨S2x1600000, .i32⟩ : BufTy).Contents (Elt Ideal)) (x2 : (⟨S500000x2, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (r : Fin 500000) (c : Fin 128) :
    Read.val_main_v83 (F := Ideal) x0 x1 x2 x3 x4 x5 x6 x7 x8 x9 x10 (ix2 r c)
      = Cert.Spec.hidden1 (n := 500000) (Read.val_main_v67 (F := Ideal) x0 x1 x2 x3 x4 x5 x6 x7 x8) (Read.val_main_v76 (F := Ideal) x0 x1 x2 x3 x4 x5 x6 x7 x8) (Read.val_main_v78 (F := Ideal) x9) x10 r c := by
  rw [Read.val_main_v83_apply, Read.val_main_v82_apply, v79_at, v81_at, relu1_at]
  rfl

theorem v85_at (x0 : (⟨S100000x128, .f32⟩ : BufTy).Contents (Elt Ideal)) (x1 : (⟨S2x1600000, .i32⟩ : BufTy).Contents (Elt Ideal)) (x2 : (⟨S500000x2, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S64x128, .f32⟩ : BufTy).Contents (Elt Ideal)) (r : Fin 500000) (c : Fin 64) :
    Read.val_main_v85 (F := Ideal) x0 x1 x2 x3 x4 x5 x6 x7 x8 x9 x10 x11 (ix2 r c)
      = ∑ k : Fin 128, Cert.Spec.hidden1 (n := 500000) (Read.val_main_v67 (F := Ideal) x0 x1 x2 x3 x4 x5 x6 x7 x8) (Read.val_main_v76 (F := Ideal) x0 x1 x2 x3 x4 x5 x6 x7 x8) (Read.val_main_v78 (F := Ideal) x9) x10 r k * (Read.val_main_v84 (F := Ideal) x11) (ix2 k c) := by
  rw [Read.val_main_v85_apply]
  refine Finset.sum_congr rfl fun k _ => ?_
  rw [lidx85, ridx85, v83_at]

theorem v87_at (x12 : (⟨S64, .f32⟩ : BufTy).Contents (Elt Ideal)) (r : Fin 500000) (c : Fin 64) : Read.val_main_v87 (F := Ideal) x12 (ix2 r c) = x12 (ix1 c) := by
  rw [Read.val_main_v87_apply, Read.val_main_v86_apply, idx86_87]

theorem relu2_at (r : Fin 500000) (c : Fin 64) : Read.val_main_call2_v0 (F := Ideal) (ix2 r c) = Cert.Spec.zero := by
  rw [Read.val_main_call2_v0_apply, Read.val_main_call2_cst_apply]
  rfl

/-- The second hidden row. -/
theorem v89_at (x0 : (⟨S100000x128, .f32⟩ : BufTy).Contents (Elt Ideal)) (x1 : (⟨S2x1600000, .i32⟩ : BufTy).Contents (Elt Ideal)) (x2 : (⟨S500000x2, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S64x128, .f32⟩ : BufTy).Contents (Elt Ideal)) (x12 : (⟨S64, .f32⟩ : BufTy).Contents (Elt Ideal)) (r : Fin 500000) (c : Fin 64) :
    Read.val_main_v89 (F := Ideal) x0 x1 x2 x3 x4 x5 x6 x7 x8 x9 x10 x11 x12 (ix2 r c)
      = Cert.Spec.hidden2 (n := 500000) (Read.val_main_v67 (F := Ideal) x0 x1 x2 x3 x4 x5 x6 x7 x8) (Read.val_main_v76 (F := Ideal) x0 x1 x2 x3 x4 x5 x6 x7 x8) (Read.val_main_v78 (F := Ideal) x9) x10 (Read.val_main_v84 (F := Ideal) x11) x12 r c := by
  rw [Read.val_main_v89_apply, Read.val_main_v88_apply, v85_at, v87_at, relu2_at]
  rfl

theorem v91_at (x0 : (⟨S100000x128, .f32⟩ : BufTy).Contents (Elt Ideal)) (x1 : (⟨S2x1600000, .i32⟩ : BufTy).Contents (Elt Ideal)) (x2 : (⟨S500000x2, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal)) (x11 : (⟨S64x128, .f32⟩ : BufTy).Contents (Elt Ideal)) (x12 : (⟨S64, .f32⟩ : BufTy).Contents (Elt Ideal)) (x13 : (⟨S1x64, .f32⟩ : BufTy).Contents (Elt Ideal)) (r : Fin 500000) (u : Fin 1) :
    Read.val_main_v91 (F := Ideal) x0 x1 x2 x3 x4 x5 x6 x7 x8 x9 x10 x11 x12 x13 (ix2 r u)
      = ∑ k : Fin 64, Cert.Spec.hidden2 (n := 500000) (Read.val_main_v67 (F := Ideal) x0 x1 x2 x3 x4 x5 x6 x7 x8) (Read.val_main_v76 (F := Ideal) x0 x1 x2 x3 x4 x5 x6 x7 x8) (Read.val_main_v78 (F := Ideal) x9) x10 (Read.val_main_v84 (F := Ideal) x11) x12 r k * (Read.val_main_v90 (F := Ideal) x13) (ix2 k u) := by
  rw [Read.val_main_v91_apply]
  refine Finset.sum_congr rfl fun k _ => ?_
  rw [lidx91, ridx91, v89_at]

theorem v93_at (x14 : (⟨S1, .f32⟩ : BufTy).Contents (Elt Ideal)) (r : Fin 500000) (u : Fin 1) : Read.val_main_v93 (F := Ideal) x14 (ix2 r u) = x14 (ix1 u) := by
  rw [Read.val_main_v93_apply, Read.val_main_v92_apply, idx92_93]

/-- The reference's decoder is the specification's, of the two gathered rows, the transposed weights and the
    biases. -/
theorem ref_decoder (x0 : (⟨S100000x128, .f32⟩ : BufTy).Contents (Elt Ideal)) (x1 : (⟨S2x1600000, .i32⟩ : BufTy).Contents (Elt Ideal)) (x2 : (⟨S500000x2, .i32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal)) (x9 : (⟨S128x128, .f32⟩ : BufTy).Contents (Elt Ideal)) (x10 : (⟨S128, .f32⟩ : BufTy).Contents (Elt Ideal))
    (x11 : (⟨S64x128, .f32⟩ : BufTy).Contents (Elt Ideal)) (x12 : (⟨S64, .f32⟩ : BufTy).Contents (Elt Ideal)) (x13 : (⟨S1x64, .f32⟩ : BufTy).Contents (Elt Ideal)) (x14 : (⟨S1, .f32⟩ : BufTy).Contents (Elt Ideal)) :
    Read.val_main_v94 (F := Ideal) x0 x1 x2 x3 x4 x5 x6 x7 x8 x9 x10 x11 x12 x13 x14
      = Cert.Spec.decoder (n := 500000) (Read.val_main_v67 (F := Ideal) x0 x1 x2 x3 x4 x5 x6 x7 x8) (Read.val_main_v76 (F := Ideal) x0 x1 x2 x3 x4 x5 x6 x7 x8) (Read.val_main_v78 (F := Ideal) x9) x10 (Read.val_main_v84 (F := Ideal) x11) x12 (Read.val_main_v90 (F := Ideal) x13) x14 := by
  funext i
  obtain ⟨r, u, rfl⟩ : ∃ (r : Fin 500000) (u : Fin 1), i = ix2 r u := ⟨i 0, i 1, eq_ix2 i⟩
  rw [Read.val_main_v94_apply, v91_at, v93_at]
  rfl

end Cert.ReferenceIdeal.Net

end
-- ==== Proof.Bridge.lean ====
/-
  The reference program, as one function of its fifteen arguments, is the kernel program's host operations around the
  specification's three stages.

  The two programs apply the same host operations to the same operands: the edge list sliced into its sources and
  destinations, an index counted from the end when negative, the sources' rows gathered and summed at the
  destinations, ones summed at the destinations, the rows named by the pair list's two columns picked, the weight
  matrices transposed.  Each program writes these operations over its own copies of the shapes, the dimension records
  and the side conditions; the copies are the same literals, so corresponding terms are equal by unfolding, and a
  change of float format is the identity on the extended reals.  Which element a gather or a scatter reads depends on
  the index arrays' values: these operations are compared as they stand, never read at an index.

  Between the host operations the reference's two graph layers and its decoder are the specification's, so the
  reference's result is the specification's decoder of the picked rows of the specification's second layer of the
  specification's first layer — the kernel program's whole computation.
-/
import proofs.«116149_j64888365907988_2_alg».proof.Proof.KHost
import proofs.«116149_j64888365907988_2_alg».proof.Proof.Gen.ReferenceIdeal.Read
import proofs.«116149_j64888365907988_2_alg».proof.Proof.RefLayers
import proofs.«116149_j64888365907988_2_alg».proof.Proof.RefDecoder
import Idealize.ShloMosaic.PureOps.Ideal

noncomputable section

namespace Cert.Bridge

open Cert.ReferenceIdeal Cert.ReferenceIdeal.Read Idealize.ShloMosaic

/-! ## The edge list's two rows and the pair list's two columns -/

/-- The reference's edge sources are the kernel program's. -/
theorem src_eq (x1 : (⟨S2x1600000, .i32⟩ : BufTy).Contents (Elt Ideal)) :
    val_main_v1 (F := Ideal) x1 = KernelIdeal.Net.edgeSrc x1 := by
  unfold val_main_v1 val_main_v0 KernelIdeal.Net.edgeSrc
  rfl

/-- The reference's edge destinations are the kernel program's. -/
theorem dst_eq (x1 : (⟨S2x1600000, .i32⟩ : BufTy).Contents (Elt Ideal)) :
    val_main_v3 (F := Ideal) x1 = KernelIdeal.Net.edgeDst x1 := by
  unfold val_main_v3 val_main_v2 KernelIdeal.Net.edgeDst
  rfl

/-- The reference's first pair column is the kernel program's. -/
theorem fst_eq (x2 : (⟨S500000x2, .i32⟩ : BufTy).Contents (Elt Ideal)) :
    val_main_v60 (F := Ideal) x2 = KernelIdeal.Net.pairFst x2 := by
  unfold val_main_v60 val_main_v59 KernelIdeal.Net.pairFst
  rfl

/-- The reference's second pair column is the kernel program's. -/
theorem snd_eq (x2 : (⟨S500000x2, .i32⟩ : BufTy).Contents (Elt Ideal)) :
    val_main_v69 (F := Ideal) x2 = KernelIdeal.Net.pairSnd x2 := by
  unfold val_main_v69 val_main_v68 KernelIdeal.Net.pairSnd
  rfl

/-! ## An index counted from the end when negative -/

/-- The first layer's wrapped edge sources. -/
theorem wrap1_eq (x1 : (⟨S2x1600000, .i32⟩ : BufTy).Contents (Elt Ideal)) :
    val_main_v8 (F := Ideal) x1 = KernelIdeal.Net.wrapEdge (KernelIdeal.Net.edgeSrc x1) := by
  unfold val_main_v8 val_main_v5 val_main_v7 val_main_v4 val_main_v6 val_main_c val_main_c_0
  rw [src_eq]
  unfold KernelIdeal.Net.wrapEdge
  rfl

/-- The second layer's wrapped edge sources: the same. -/
theorem wrap2_eq (x1 : (⟨S2x1600000, .i32⟩ : BufTy).Contents (Elt Ideal)) :
    val_main_v36 (F := Ideal) x1 = KernelIdeal.Net.wrapEdge (KernelIdeal.Net.edgeSrc x1) := by
  unfold val_main_v36 val_main_v33 val_main_v35 val_main_v32 val_main_v34 val_main_c_4 val_main_c_5
  rw [src_eq]
  unfold KernelIdeal.Net.wrapEdge
  rfl

/-- The wrapped first pair column. -/
theorem wrapFst_eq (x2 : (⟨S500000x2, .i32⟩ : BufTy).Contents (Elt Ideal)) :
    val_main_v65 (F := Ideal) x2 = KernelIdeal.Net.wrapPair (KernelIdeal.Net.pairFst x2) := by
  unfold val_main_v65 val_main_v62 val_main_v64 val_main_v61 val_main_v63 val_main_c_10 val_main_c_11
  rw [fst_eq]
  unfold KernelIdeal.Net.wrapPair
  rfl

/-- The wrapped second pair column. -/
theorem wrapSnd_eq (x2 : (⟨S500000x2, .i32⟩ : BufTy).Contents (Elt Ideal)) :
    val_main_v74 (F := Ideal) x2 = KernelIdeal.Net.wrapPair (KernelIdeal.Net.pairSnd x2) := by
  unfold val_main_v74 val_main_v71 val_main_v73 val_main_v70 val_main_v72 val_main_c_12 val_main_c_13
  rw [snd_eq]
  unfold KernelIdeal.Net.wrapPair
  rfl

/-! ## The neighbour sums, the neighbour count, the picked rows and the transposes -/

/-- Rows of any feature array gathered at the wrapped sources and summed into zeros at the destinations: the
    reference's operations are the kernel program's, the narrow format being the identity at the ideal values. -/
theorem sumOf_eq (y : (⟨S100000x128, .f32⟩ : BufTy).Contents (Elt Ideal)) (x1 : (⟨S2x1600000, .i32⟩ : BufTy).Contents (Elt Ideal))
    (z : (⟨S_, .f32⟩ : BufTy).Contents (Elt Ideal)) (hz : z = constant (F := Ideal) S_ .f32 0x00000000#32)
    (s : (⟨S1600000, .i32⟩ : BufTy).Contents (Elt Ideal)) (hs : s = KernelIdeal.Net.wrapEdge (KernelIdeal.Net.edgeSrc x1)) :
    Host.scatterAdd (F := Ideal) (φ := .f32) scatter_S100000x128_S1600000x1_S1600000x128_1_0_0_1
        (broadcastInDim S100000x128 ![] Gen.bcast_S_S100000x128 z)
        (broadcastInDim S1600000x1 ![0] Gen.bcast_S1600000_S1600000x1_0 (val_main_v3 (F := Ideal) x1))
        (Host.gather gather_S100000x128_S1600000x1_S1600000x128_1_0_n_n_0_1_1128 y
          (broadcastInDim S1600000x1 ![0] Gen.bcast_S1600000_S1600000x1_0 s))
      = KernelIdeal.Net.nbrSum y (KernelIdeal.Net.edgeSrc x1) (KernelIdeal.Net.edgeDst x1) := by
  rw [hz, hs, dst_eq]
  unfold KernelIdeal.Net.nbrSum
  rfl

/-- The first layer's neighbour sums. -/
theorem sum1_eq (x0 : (⟨S100000x128, .f32⟩ : BufTy).Contents (Elt Ideal)) (x1 : (⟨S2x1600000, .i32⟩ : BufTy).Contents (Elt Ideal)) :
    val_main_v13 (F := Ideal) x0 x1
      = KernelIdeal.Net.nbrSum (truncf (F := Ideal) (s := KernelIdeal.S100000x128) (φ := .f32) .bf16 x0 KernelIdeal.Facts₀.bitsLt_bf16_f32)
          (KernelIdeal.Net.edgeSrc x1) (KernelIdeal.Net.edgeDst x1) := by
  unfold val_main_v13 val_main_v10 val_main_v9 val_main_v11 val_main_v12
  exact sumOf_eq x0 x1 _ (by unfold val_main_cst; rfl) _ (wrap1_eq x1)

/-- The second layer's neighbour sums, of the first layer's result. -/
theorem sum2_eq (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v41 (F := Ideal) x0 x1 x3 x4 x5
      = KernelIdeal.Net.nbrSum (val_main_v31 (F := Ideal) x0 x1 x3 x4 x5) (KernelIdeal.Net.edgeSrc x1) (KernelIdeal.Net.edgeDst x1) := by
  unfold val_main_v41 val_main_v38 val_main_v37 val_main_v39 val_main_v40
  exact sumOf_eq _ x1 _ (by unfold val_main_cst_6; rfl) _ (wrap2_eq x1)

/-- The neighbour count as a column. -/
theorem cnt_eq (x1 : (⟨S2x1600000, .i32⟩ : BufTy).Contents (Elt Ideal)) :
    ReferenceIdeal.Net.cntcol x1 = KernelIdeal.Net.nbrCount (KernelIdeal.Net.edgeDst x1) := by
  unfold ReferenceIdeal.Net.cntcol val_main_v17 val_main_v15 val_main_v16 val_main_v14 val_main_cst_2 val_main_cst_1
  rw [dst_eq]
  unfold KernelIdeal.Net.nbrCount
  rfl

/-- The rows of the second layer's result named by the first pair column. -/
theorem pick1_eq (x0 : (⟨S100000x128, .f32⟩ : BufTy).Contents (Elt Ideal)) (x1 : (⟨S2x1600000, .i32⟩ : BufTy).Contents (Elt Ideal))
    (x2 : (⟨S500000x2, .i32⟩ : BufTy).Contents (Elt Ideal)) (x3 : (⟨S128x128, .f32⟩ : BufTy).Contents (Elt Ideal))
    (x4 : (⟨S128, .f32⟩ : BufTy).Contents (Elt Ideal)) (x5 x6 : (⟨S128x128, .f32⟩ : BufTy).Contents (Elt Ideal))
    (x7 : (⟨S128, .f32⟩ : BufTy).Contents (Elt Ideal)) (x8 : (⟨S128x128, .f32⟩ : BufTy).Contents (Elt Ideal)) :
    val_main_v67 (F := Ideal) x0 x1 x2 x3 x4 x5 x6 x7 x8
      = KernelIdeal.Net.pickRows (val_main_v58 (F := Ideal) x0 x1 x3 x4 x5 x6 x7 x8) (KernelIdeal.Net.pairFst x2) := by
  unfold val_main_v67 val_main_v66
  rw [wrapFst_eq]
  unfold KernelIdeal.Net.pickRows
  rfl

/-- The rows of the second layer's result named by the second pair column. -/
theorem pick2_eq (x0 : (⟨S100000x128, .f32⟩ : BufTy).Contents (Elt Ideal)) (x1 : (⟨S2x1600000, .i32⟩ : BufTy).Contents (Elt Ideal))
    (x2 : (⟨S500000x2, .i32⟩ : BufTy).Contents (Elt Ideal)) (x3 : (⟨S128x128, .f32⟩ : BufTy).Contents (Elt Ideal))
    (x4 : (⟨S128, .f32⟩ : BufTy).Contents (Elt Ideal)) (x5 x6 : (⟨S128x128, .f32⟩ : BufTy).Contents (Elt Ideal))
    (x7 : (⟨S128, .f32⟩ : BufTy).Contents (Elt Ideal)) (x8 : (⟨S128x128, .f32⟩ : BufTy).Contents (Elt Ideal)) :
    val_main_v76 (F := Ideal) x0 x1 x2 x3 x4 x5 x6 x7 x8
      = KernelIdeal.Net.pickRows (val_main_v58 (F := Ideal) x0 x1 x3 x4 x5 x6 x7 x8) (KernelIdeal.Net.pairSnd x2) := by
  unfold val_main_v76 val_main_v75
  rw [wrapSnd_eq]
  unfold KernelIdeal.Net.pickRows
  rfl

/-- The first layer's left weight transposed. -/
theorem tr23_eq (w : (⟨S128x128, .f32⟩ : BufTy).Contents (Elt Ideal)) : val_main_v23 (F := Ideal) w = KernelIdeal.Net.tr128 w := by
  unfold val_main_v23 KernelIdeal.Net.tr128
  rfl
/-- The first layer's right weight transposed. -/
theorem tr28_eq (w : (⟨S128x128, .f32⟩ : BufTy).Contents (Elt Ideal)) : val_main_v28 (F := Ideal) w = KernelIdeal.Net.tr128 w := by
  unfold val_main_v28 KernelIdeal.Net.tr128
  rfl
/-- The second layer's left weight transposed. -/
theorem tr51_eq (w : (⟨S128x128, .f32⟩ : BufTy).Contents (Elt Ideal)) : val_main_v51 (F := Ideal) w = KernelIdeal.Net.tr128 w := by
  unfold val_main_v51 KernelIdeal.Net.tr128
  rfl
/-- The second layer's right weight transposed. -/
theorem tr56_eq (w : (⟨S128x128, .f32⟩ : BufTy).Contents (Elt Ideal)) : val_main_v56 (F := Ideal) w = KernelIdeal.Net.tr128 w := by
  unfold val_main_v56 KernelIdeal.Net.tr128
  rfl
/-- The decoder's first weight transposed. -/
theorem tr78_eq (w : (⟨S128x128, .f32⟩ : BufTy).Contents (Elt Ideal)) : val_main_v78 (F := Ideal) w = KernelIdeal.Net.tr128 w := by
  unfold val_main_v78 KernelIdeal.Net.tr128
  rfl
/-- The decoder's second weight transposed. -/
theorem tr84_eq (w : (⟨S64x128, .f32⟩ : BufTy).Contents (Elt Ideal)) : val_main_v84 (F := Ideal) w = KernelIdeal.Net.tr64 w := by
  unfold val_main_v84 KernelIdeal.Net.tr64
  rfl
/-- The decoder's last weight row transposed into a column. -/
theorem tr90_eq (w : (⟨S1x64, .f32⟩ : BufTy).Contents (Elt Ideal)) : val_main_v90 (F := Ideal) w = KernelIdeal.Net.tr1 w := by
  unfold val_main_v90 KernelIdeal.Net.tr1
  rfl

/-! ## The whole reference is the whole computation of the kernel program -/

/-- THE REFERENCE'S RESULT is the kernel program's host operations and the specification's three stages, applied to the
    same fifteen arguments. -/
theorem ref_is_net (x0 : (⟨S100000x128, .f32⟩ : BufTy).Contents (Elt Ideal)) (x1 : (⟨S2x1600000, .i32⟩ : BufTy).Contents (Elt Ideal))
    (x2 : (⟨S500000x2, .i32⟩ : BufTy).Contents (Elt Ideal)) (x3 : (⟨S128x128, .f32⟩ : BufTy).Contents (Elt Ideal))
    (x4 : (⟨S128, .f32⟩ : BufTy).Contents (Elt Ideal)) (x5 x6 : (⟨S128x128, .f32⟩ : BufTy).Contents (Elt Ideal))
    (x7 : (⟨S128, .f32⟩ : BufTy).Contents (Elt Ideal)) (x8 x9 : (⟨S128x128, .f32⟩ : BufTy).Contents (Elt Ideal))
    (x10 : (⟨S128, .f32⟩ : BufTy).Contents (Elt Ideal)) (x11 : (⟨S64x128, .f32⟩ : BufTy).Contents (Elt Ideal))
    (x12 : (⟨S64, .f32⟩ : BufTy).Contents (Elt Ideal)) (x13 : (⟨S1x64, .f32⟩ : BufTy).Contents (Elt Ideal))
    (x14 : (⟨S1, .f32⟩ : BufTy).Contents (Elt Ideal)) :
    Cert.ReferenceIdeal.Read.val_main_v95 (F := Ideal) x0 x1 x2 x3 x4 x5 x6 x7 x8 x9 x10 x11 x12 x13 x14
      = shapeCast Cert.KernelIdeal.S500000
          (Cert.KernelIdeal.Net.netScores
            (Cert.KernelIdeal.Net.netLayer2 (Cert.KernelIdeal.Net.netLayer1 x0 x1 x3 x4 x5) x1 x6 x7 x8)
            x2 x9 x10 x11 x12 x13 x14)
          Cert.KernelIdeal.Facts₀.shapeCasts_S500000x1_S500000 := by
  unfold val_main_v95
  rw [ReferenceIdeal.Net.ref_decoder, pick1_eq, pick2_eq, ReferenceIdeal.Net.ref_layer2, sum2_eq,
    ReferenceIdeal.Net.ref_layer1, sum1_eq, cnt_eq, tr23_eq, tr28_eq, tr51_eq, tr56_eq, tr78_eq, tr84_eq, tr90_eq]
  unfold KernelIdeal.Net.netScores KernelIdeal.Net.netLayer2 KernelIdeal.Net.netLayer1
  rfl

end Cert.Bridge

end
-- ==== Proof.lean ====
/-
  A two-layer graph network with mean aggregation and a three-layer decoder, computed by three grids of row blocks
  among host operations, equals its plain reference on the extended reals.

  Both programs compute, from the node features, the edge list, the pair list and the weights: the neighbour counts
  and the neighbour sums of the node features; the first layer (each node's mean of its neighbours through one weight
  matrix, plus a bias, plus the node's own features through another, clamped below at zero); the neighbour sums of
  that result and the second layer (the same without the clamp); the rows of the second layer's result named by the
  pair list's two columns; and the decoder (the feature-wise product of a pair's two rows through three affine maps,
  the first two clamped at zero).  The kernel program runs each layer and the decoder as a grid of blocks of 5000
  rows; a row of a layer depends only on the same row of its row-indexed operands, so each grid writes the layer of
  the whole arrays it finds, and the blocks tile the result.  A matrix product is the sum over the contracted
  coordinate on both sides; a change of float format is the identity on the extended reals; the gathers and scatters
  are the same operations applied to the same operands in both programs.  No law of the extended reals beyond the
  equality of these sums is needed, so the precondition is never opened.

  The three frames: the two kernel programs' are the generated frame theorems; the reference's is its generated run
  with the result dropped.  The idealization rewrote no operation, so its claim is trivial.
-/
import proofs.«116149_j64888365907988_2_alg».proof.Defs
import proofs.«116149_j64888365907988_2_alg».proof.Proof.Gen.Kernel
import proofs.«116149_j64888365907988_2_alg».proof.Proof.Gen.Kernel.Skeleton
import proofs.«116149_j64888365907988_2_alg».proof.Proof.Gen.Kernel.Launch
import proofs.«116149_j64888365907988_2_alg».proof.Proof.Gen.Kernel.Points
import proofs.«116149_j64888365907988_2_alg».proof.Proof.Gen.Kernel.Frame
import proofs.«116149_j64888365907988_2_alg».proof.Proof.Gen.KernelIdeal
import proofs.«116149_j64888365907988_2_alg».proof.Proof.Gen.KernelIdeal.Skeleton
import proofs.«116149_j64888365907988_2_alg».proof.Proof.Gen.KernelIdeal.Launch
import proofs.«116149_j64888365907988_2_alg».proof.Proof.Gen.KernelIdeal.Points
import proofs.«116149_j64888365907988_2_alg».proof.Proof.Gen.KernelIdeal.Frame
import proofs.«116149_j64888365907988_2_alg».proof.Proof.Gen.ReferenceIdeal
import proofs.«116149_j64888365907988_2_alg».proof.Proof.Gen.Pre_finite_inputs
import proofs.«116149_j64888365907988_2_alg».proof.Proof.Gen.ReferenceIdeal.Run
import proofs.«116149_j64888365907988_2_alg».proof.Proof.Gen.ReferenceIdeal.Read
import proofs.«116149_j64888365907988_2_alg».proof.Proof.Spec
import proofs.«116149_j64888365907988_2_alg».proof.Proof.BodyLayers
import proofs.«116149_j64888365907988_2_alg».proof.Proof.BodyDecoder
import proofs.«116149_j64888365907988_2_alg».proof.Proof.KRun
import proofs.«116149_j64888365907988_2_alg».proof.Proof.KBounds
import proofs.«116149_j64888365907988_2_alg».proof.Proof.RefLayers
import proofs.«116149_j64888365907988_2_alg».proof.Proof.RefDecoder
import proofs.«116149_j64888365907988_2_alg».proof.Proof.Bridge
import Idealize.ShloMosaic.Adequacy
import Idealize.ShloMosaic.Init

set_option maxRecDepth 16384

noncomputable section

namespace Cert.Proof

open Idealize.ShloMosaic Idealize.SL.Sem Cert.KernelIdeal.Net

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => shapeCast Cert.KernelIdeal.S500000 (netScores (netLayer2 (netLayer1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) Cert.KernelIdeal.Facts₀.shapeCasts_S500000x1_S500000,
     (θ_run Cert.KernelIdeal.defs _ _).mono
       (fun r h c => ⟨(h c).1.trans (returned m ρ Cert.KernelIdeal.Body.pay_layer1 Cert.KernelIdeal.Body.pay_layer2 Cert.KernelIdeal.Body.pay_decoder c), (h c).2⟩)
       (run_result (F := Ideal) m ρ),
     (θ_run Cert.ReferenceIdeal.defs _ _).mono
       (fun r h c => ⟨(h c).1.trans ((Cert.ReferenceIdeal.Read.val_main_v95_eq m' c).trans ((Cert.Bridge.ref_is_net _ _ _ _ _ _ _ _ _ _ _ _ _ _ _).trans (by
          rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]))), (h c).2⟩)
       (Cert.ReferenceIdeal.Value.run (F := Ideal) m' ρ')⟩⟩

end Cert.Proof

end
